-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x12800000 : Shape := ⟨2, ![2, 12800000]⟩
abbrev S1x16 : Shape := ⟨2, ![1, 16]⟩
abbrev S16 : Shape := ⟨1, ![16]⟩
abbrev S16x16 : Shape := ⟨2, ![16, 16]⟩
abbrev S16x4 : Shape := ⟨2, ![16, 4]⟩
abbrev S4 : Shape := ⟨1, ![4]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S16 .f32) (main_arg6 : FVec F S16x4 .f32) (main_arg7 : FVec F S4 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x4 .f32 := Host.absf main_arg6
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S200000x1 .f32) (main_arg1 : IVec S2x12800000 32) (main_arg2 : FVec F S1x16 .f32) (main_arg3 : FVec F S16 .f32) (main_arg4 : FVec F S16x16 .f32) (main_arg5 : FVec F S16 .f32) (main_arg6 : FVec F S16x4 .f32) (main_arg7 : FVec F S4 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S200000x1 : Shape := ⟨2, ![200000, 1]⟩
abbrev S2x12800000 : Shape := ⟨2, ![2, 12800000]⟩
abbrev S1x16 : Shape := ⟨2, ![1, 16]⟩
abbrev S16 : Shape := ⟨1, ![16]⟩
abbrev S16x16 : Shape := ⟨2, ![16, 16]⟩
abbrev S16x4 : Shape := ⟨2, ![16, 4]⟩
abbrev S4 : Shape := ⟨1, ![4]⟩
abbrev S200000 : Shape := ⟨1, ![200000]⟩
abbrev S1x12800000 : Shape := ⟨2, ![1, 12800000]⟩
abbrev S12800000 : Shape := ⟨1, ![12800000]⟩
abbrev S13000000 : Shape := ⟨1, ![13000000]⟩
abbrev S_ : Shape := ⟨0, ![]⟩
abbrev S13000000x1 : Shape := ⟨2, ![13000000, 1]⟩
abbrev S200000x16 : Shape := ⟨2, ![200000, 16]⟩
abbrev S5000x1 : Shape := ⟨2, ![5000, 1]⟩
abbrev S5000x16 : Shape := ⟨2, ![5000, 16]⟩
abbrev S13000000x16 : Shape := ⟨2, ![13000000, 16]⟩
abbrev S10000x16 : Shape := ⟨2, ![10000, 16]⟩
abbrev S10000x1 : Shape := ⟨2, ![10000, 1]⟩
abbrev S1x4 : Shape := ⟨2, ![1, 4]⟩
abbrev S200000x4 : Shape := ⟨2, ![200000, 4]⟩
abbrev S5000x4 : Shape := ⟨2, ![5000, 4]⟩

abbrev nBuf : Space → Nat
  | .hbm => 86
  | .vmem => 38
  | .smem => 0
  | _ => 0

abbrev bufTy : (tb : Table) → Fin (tcTables nBuf tb) → BufTy
  | .hbm, ⟨0, _⟩ => ⟨S200000x1, .f32⟩
  | .hbm, ⟨1, _⟩ => ⟨S2x12800000, .i32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x4, .f32⟩
  | .hbm, ⟨7, _⟩ => ⟨S4, .f32⟩
  | .hbm, ⟨8, _⟩ => ⟨S200000, .i32⟩
  | .hbm, ⟨9, _⟩ => ⟨S1x12800000, .i32⟩
  | .hbm, ⟨10, _⟩ => ⟨S12800000, .i32⟩
  | .hbm, ⟨11, _⟩ => ⟨S13000000, .i32⟩
  | .hbm, ⟨12, _⟩ => ⟨S1x12800000, .i32⟩
  | .hbm, ⟨13, _⟩ => ⟨S12800000, .i32⟩
  | .hbm, ⟨14, _⟩ => ⟨S13000000, .i32⟩
  | .hbm, ⟨15, _⟩ => ⟨S_, .f32⟩
  | .hbm, ⟨16, _⟩ => ⟨S13000000, .f32⟩
  | .hbm, ⟨17, _⟩ => ⟨S_, .f32⟩
  | .hbm, ⟨18, _⟩ => ⟨S200000, .f32⟩
  | .hbm, ⟨19, _⟩ => ⟨S13000000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .i32⟩
  | .hbm, ⟨30, _⟩ => ⟨S13000000, .i32⟩
  | .hbm, ⟨31, _⟩ => ⟨S13000000, .i1⟩
  | .hbm, ⟨32, _⟩ => ⟨S_, .i32⟩
  | .hbm, ⟨33, _⟩ => ⟨S13000000, .i32⟩
  | .hbm, ⟨34, _⟩ => ⟨S13000000, .i32⟩
  | .hbm, ⟨35, _⟩ => ⟨S13000000, .i32⟩
  | .hbm, ⟨36, _⟩ => ⟨S13000000x1, .i32⟩
  | .hbm, ⟨37, _⟩ => ⟨S13000000, .f32⟩
  | .hbm, ⟨38, _⟩ => ⟨S_, .i32⟩
  | .hbm, ⟨39, _⟩ => ⟨S13000000, .i32⟩
  | .hbm, ⟨40, _⟩ => ⟨S13000000, .i1⟩
  | .hbm, ⟨41, _⟩ => ⟨S_, .i32⟩
  | .hbm, ⟨42, _⟩ => ⟨S13000000, .i32⟩
  | .hbm, ⟨43, _⟩ => ⟨S13000000, .i32⟩
  | .hbm, ⟨44, _⟩ => ⟨S13000000, .i32⟩
  | .hbm, ⟨45, _⟩ => ⟨S13000000x1, .i32⟩
  | .hbm, ⟨46, _⟩ => ⟨S13000000, .f32⟩
  | .hbm, ⟨47, _⟩ => ⟨S13000000, .f32⟩
  | .hbm, ⟨48, _⟩ => ⟨S200000x16, .f32⟩
  | .hbm, ⟨49, _⟩ => ⟨S_, .i32⟩
  | .hbm, ⟨50, _⟩ => ⟨S13000000, .i32⟩
  | .hbm, ⟨51, _⟩ => ⟨S13000000, .i1⟩
  | .hbm, ⟨52, _⟩ => ⟨S_, .i32⟩
  | .hbm, ⟨53, _⟩ => ⟨S13000000, .i32⟩
  | .hbm, ⟨54, _⟩ => ⟨S13000000, .i32⟩
  | .hbm, ⟨55, _⟩ => ⟨S13000000, .i32⟩
  | .hbm, ⟨56, _⟩ => ⟨S13000000x1, .i32⟩
  | .hbm, ⟨57, _⟩ => ⟨S13000000x16, .f32⟩
  | .hbm, ⟨58, _⟩ => ⟨S13000000x1, .f32⟩
  | .hbm, ⟨59, _⟩ => ⟨S13000000x16, .f32⟩
  | .hbm, ⟨60, _⟩ => ⟨S_, .f32⟩
  | .hbm, ⟨61, _⟩ => ⟨S200000x16, .f32⟩
  | .hbm, ⟨62, _⟩ => ⟨S13000000x1, .i32⟩
  | .hbm, ⟨63, _⟩ => ⟨S200000x16, .f32⟩
  | .hbm, ⟨64, _⟩ => ⟨S1x16, .f32⟩
  | .hbm, ⟨65, _⟩ => ⟨S200000x16, .f32⟩
  | .hbm, ⟨66, _⟩ => ⟨S200000x16, .f32⟩
  | .hbm, ⟨67, _⟩ => ⟨S_, .i32⟩
  | .hbm, ⟨68, _⟩ => ⟨S13000000, .i32⟩
  | .hbm, ⟨69, _⟩ => ⟨S13000000, .i1⟩
  | .hbm, ⟨70, _⟩ => ⟨S_, .i32⟩
  | .hbm, ⟨71, _⟩ => ⟨S13000000, .i32⟩
  | .hbm, ⟨72, _⟩ => ⟨S13000000, .i32⟩
  | .hbm, ⟨73, _⟩ => ⟨S13000000, .i32⟩
  | .hbm, ⟨74, _⟩ => ⟨S13000000x1, .i32⟩
  | .hbm, ⟨75, _⟩ => ⟨S13000000x16, .f32⟩
  | .hbm, ⟨76, _⟩ => ⟨S13000000x1, .f32⟩
  | .hbm, ⟨77, _⟩ => ⟨S13000000x16, .f32⟩
  | .hbm, ⟨78, _⟩ => ⟨S_, .f32⟩
  | .hbm, ⟨79, _⟩ => ⟨S200000x16, .f32⟩
  | .hbm, ⟨80, _⟩ => ⟨S13000000x1, .i32⟩
  | .hbm, ⟨81, _⟩ => ⟨S200000x16, .f32⟩
  | .hbm, ⟨82, _⟩ => ⟨S1x16, .f32⟩
  | .hbm, ⟨83, _⟩ => ⟨S200000x16, .f32⟩
  | .hbm, ⟨84, _⟩ => ⟨S1x4, .f32⟩
  | .hbm, ⟨85, _⟩ => ⟨S200000x4, .f32⟩
  | .local _ .vmem, ⟨0, _⟩ => ⟨S5000x1, .f32⟩
  | .local _ .vmem, ⟨1, _⟩ => ⟨S5000x1, .f32⟩
  | .local _ .vmem, ⟨2, _⟩ => ⟨S1x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S10000x1, .f32⟩
  | .local _ .vmem, ⟨8, _⟩ => ⟨S10000x1, .f32⟩
  | .local _ .vmem, ⟨9, _⟩ => ⟨S10000x16, .f32⟩
  | .local _ .vmem, ⟨10, _⟩ => ⟨S10000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x16, .f32⟩
  | .local _ .vmem, ⟨19, _⟩ => ⟨S5000x16, .f32⟩
  | .local _ .vmem, ⟨20, _⟩ => ⟨S5000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S10000x16, .f32⟩
  | .local _ .vmem, ⟨26, _⟩ => ⟨S10000x16, .f32⟩
  | .local _ .vmem, ⟨27, _⟩ => ⟨S5000x16, .f32⟩
  | .local _ .vmem, ⟨28, _⟩ => ⟨S5000x16, .f32⟩
  | .local _ .vmem, ⟨29, _⟩ => ⟨S1x16, .f32⟩
  | .local _ .vmem, ⟨30, _⟩ => ⟨S5000x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S16x4, .f32⟩
  | .local _ .vmem, ⟨35, _⟩ => ⟨S1x4, .f32⟩
  | .local _ .vmem, ⟨36, _⟩ => ⟨S5000x4, .f32⟩
  | .local _ .vmem, ⟨37, _⟩ => ⟨S5000x4, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1300], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1300], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x4 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x12800000_S1x12800000_0_0 : S2x12800000.Slices ![0, 0] S1x12800000
  shapeCasts_S1x12800000_S12800000 : S1x12800000.ShapeCasts S12800000
  concatenates_S12800000_S200000_S13000000_d0 : Shape.Concatenates [S12800000, S200000] S13000000 0
  slices_S2x12800000_S1x12800000_1_0 : S2x12800000.Slices ![1, 0] S1x12800000
  bcast_S_S13000000 : S_.BroadcastsInDim S13000000 (![] : Fin 0 → Fin S13000000.rank)
  bcast_S_S200000 : S_.BroadcastsInDim S200000 (![] : Fin 0 → Fin S200000.rank)
  bcast_S13000000_S13000000x1_0 : S13000000.BroadcastsInDim S13000000x1 (![0] : Fin 1 → Fin S13000000x1.rank)
  inb_S5000x1_S5000x1_0_0 : ∀ a, (![0, 0] : Fin 2 → Nat) a + S5000x1.size a ≤ S5000x1.size a
  h_S5000x1 : 0 < S5000x1.numel
  inb_S1x16_S1x16_0_0 : ∀ a, (![0, 0] : Fin 2 → Nat) a + S1x16.size a ≤ S1x16.size a
  h_S1x16 : 0 < S1x16.numel
  inb_S5000x16_S5000x16_0_0 : ∀ a, (![0, 0] : Fin 2 → Nat) a + S5000x16.size a ≤ S5000x16.size a
  h_S5000x16 : 0 < S5000x16.numel
  shapeCasts_S13000000_S13000000x1 : S13000000.ShapeCasts S13000000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bcast_S_S200000x16 : S_.BroadcastsInDim S200000x16 (![] : Fin 0 → Fin S200000x16.rank)
  shapeCasts_S16_S1x16 : S16.ShapeCasts S1x16
  shapeCasts_S1x16_S1x16 : S1x16.ShapeCasts S1x16
  broadcasts_S1x16_S5000x16 : S1x16.Broadcasts S5000x16
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  shapeCasts_S4_S1x4 : S4.ShapeCasts S1x4
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  dot_S5000x1_S1x16_S5000x16_1_0_0_1_n_n_wf : DotDims.WF S5000x1 S1x16 S5000x16 [1] [0] [0] [1] [] []
  gather_S200000x16_S13000000x1_S13000000x16_1_0_n_n_0_1_116_wf : GatherDims.WF S200000x16 S13000000x1 S13000000x16 [1] [0] [] [0] [] 1 ![1, 16]
  scatter_S200000x16_S13000000x1_S13000000x16_1_0_0_1_wf : ScatterDims.WF S200000x16 S13000000x1 S13000000x16 [1] [0] [0] 1
  dot_S5000x16_S16x16_S5000x16_1_0_0_1_n_n_wf : DotDims.WF S5000x16 S16x16 S5000x16 [1] [0] [0] [1] [] []
  dot_S5000x16_S16x4_S5000x4_1_0_0_1_n_n_wf : DotDims.WF S5000x16 S16x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S200000x1.size a
  hwx0_0 : ∀ i : grid0.Coords, EltTy.bits .f32 = 32 ∨ (Rect.block (s := S200000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S200000x16.size a
  hwx0_2 : ∀ i : grid0.Coords, EltTy.bits .f32 = 32 ∨ (Rect.block (s := S200000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S13000000x16.size a
  hwx1_0 : ∀ i : grid1.Coords, EltTy.bits .f32 = 32 ∨ (Rect.block (s := S13000000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S13000000x1.size a
  hwx1_1 : ∀ i : grid1.Coords, EltTy.bits .f32 = 32 ∨ (Rect.block (s := S13000000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S13000000x16.size a
  hwx1_2 : ∀ i : grid1.Coords, EltTy.bits .f32 = 32 ∨ (Rect.block (s := S13000000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S200000x16.size a
  hwx2_2 : ∀ i : grid2.Coords, EltTy.bits .f32 = 32 ∨ (Rect.block (s := S200000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S200000x16.size a
  hwx3_0 : ∀ i : grid3.Coords, EltTy.bits .f32 = 32 ∨ (Rect.block (s := S200000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S200000x16.size a
  hwx3_2 : ∀ i : grid3.Coords, EltTy.bits .f32 = 32 ∨ (Rect.block (s := S200000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S13000000x16.size a
  hwx4_0 : ∀ i : grid4.Coords, EltTy.bits .f32 = 32 ∨ (Rect.block (s := S13000000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S13000000x1.size a
  hwx4_1 : ∀ i : grid4.Coords, EltTy.bits .f32 = 32 ∨ (Rect.block (s := S13000000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S13000000x16.size a
  hwx4_2 : ∀ i : grid4.Coords, EltTy.bits .f32 = 32 ∨ (Rect.block (s := S13000000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S200000x16.size a
  hwx5_0 : ∀ i : grid5.Coords, EltTy.bits .f32 = 32 ∨ (Rect.block (s := S200000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S200000x16.size a
  hwx5_2 : ∀ i : grid5.Coords, EltTy.bits .f32 = 32 ∨ (Rect.block (s := S200000x16) S5000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S200000x16.size a
  hwx6_0 : ∀ i : grid6.Coords, EltTy.bits .f32 = 32 ∨ (Rect.block (s := S200000x16) S5000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x4.size a ≤ S16x4.size a
  hwx6_1 : ∀ i : grid6.Coords, EltTy.bits .f32 = 32 ∨ (Rect.block (s := S16x4) S16x4.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x4.size a ≤ S1x4.size a
  hwx6_2 : ∀ i : grid6.Coords, EltTy.bits .f32 = 32 ∨ (Rect.block (s := S1x4) S1x4.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x4.size a ≤ S200000x4.size a
  hwx6_3 : ∀ i : grid6.Coords, EltTy.bits .f32 = 32 ∨ (Rect.block (s := S200000x4) S5000x4.size (cc6_transform_3 i) (hinb6_3 i)).WholeWords (EltTy.packing .f32)

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def gather_S200000x16_S13000000x1_S13000000x16_1_0_n_n_0_1_116 : GatherDims S200000x16 S13000000x1 S13000000x16 where
  offsetDims := [1]
  collapsedSliceDims := [0]
  operandBatchingDims := []
  startIndicesBatchingDims := []
  startIndexMap := [0]
  indexVectorDim := 1
  sliceSizes := ![1, 16]
  wf := gather_S200000x16_S13000000x1_S13000000x16_1_0_n_n_0_1_116_wf
def scatter_S200000x16_S13000000x1_S13000000x16_1_0_0_1 : ScatterDims S200000x16 S13000000x1 S13000000x16 where
  updateWindowDims := [1]
  insertedWindowDims := [0]
  scatterDimsToOperandDims := [0]
  indexVectorDim := 1
  wf := scatter_S200000x16_S13000000x1_S13000000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x4_S5000x4_1_0_0_1_n_n : DotDims S5000x16 S16x4 S5000x4 where
  lhsContracting := [1]
  rhsContracting := [0]
  lhsNonContracting := [0]
  rhsNonContracting := [1]
  lhsBatch := []
  rhsBatch := []
  wf := dot_S5000x16_S16x4_S5000x4_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S16x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x4.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S5000x4.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S200000x1 : Shape := ⟨2, ![200000, 1]⟩
abbrev S2x12800000 : Shape := ⟨2, ![2, 12800000]⟩
abbrev S1x16 : Shape := ⟨2, ![1, 16]⟩
abbrev S16 : Shape := ⟨1, ![16]⟩
abbrev S16x16 : Shape := ⟨2, ![16, 16]⟩
abbrev S16x4 : Shape := ⟨2, ![16, 4]⟩
abbrev S4 : Shape := ⟨1, ![4]⟩
abbrev S200000 : Shape := ⟨1, ![200000]⟩
abbrev S1x12800000 : Shape := ⟨2, ![1, 12800000]⟩
abbrev S12800000 : Shape := ⟨1, ![12800000]⟩
abbrev S13000000 : Shape := ⟨1, ![13000000]⟩
abbrev S_ : Shape := ⟨0, ![]⟩
abbrev S13000000x1 : Shape := ⟨2, ![13000000, 1]⟩
abbrev S200000x16 : Shape := ⟨2, ![200000, 16]⟩
abbrev S13000000x16 : Shape := ⟨2, ![13000000, 16]⟩
abbrev S200000x4 : Shape := ⟨2, ![200000, 4]⟩
abbrev S1x4 : Shape := ⟨2, ![1, 4]⟩

abbrev nBuf : Space → Nat
  | .hbm => 98
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x12800000, .i32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x4, .f32⟩
  | .hbm, ⟨7, _⟩ => ⟨S4, .f32⟩
  | .hbm, ⟨8, _⟩ => ⟨S200000, .i32⟩
  | .hbm, ⟨9, _⟩ => ⟨S1x12800000, .i32⟩
  | .hbm, ⟨10, _⟩ => ⟨S12800000, .i32⟩
  | .hbm, ⟨11, _⟩ => ⟨S13000000, .i32⟩
  | .hbm, ⟨12, _⟩ => ⟨S1x12800000, .i32⟩
  | .hbm, ⟨13, _⟩ => ⟨S12800000, .i32⟩
  | .hbm, ⟨14, _⟩ => ⟨S13000000, .i32⟩
  | .hbm, ⟨15, _⟩ => ⟨S_, .f32⟩
  | .hbm, ⟨16, _⟩ => ⟨S13000000, .f32⟩
  | .hbm, ⟨17, _⟩ => ⟨S_, .f32⟩
  | .hbm, ⟨18, _⟩ => ⟨S200000, .f32⟩
  | .hbm, ⟨19, _⟩ => ⟨S13000000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .i32⟩
  | .hbm, ⟨30, _⟩ => ⟨S13000000, .i32⟩
  | .hbm, ⟨31, _⟩ => ⟨S13000000, .i1⟩
  | .hbm, ⟨32, _⟩ => ⟨S_, .i32⟩
  | .hbm, ⟨33, _⟩ => ⟨S13000000, .i32⟩
  | .hbm, ⟨34, _⟩ => ⟨S13000000, .i32⟩
  | .hbm, ⟨35, _⟩ => ⟨S13000000, .i32⟩
  | .hbm, ⟨36, _⟩ => ⟨S13000000x1, .i32⟩
  | .hbm, ⟨37, _⟩ => ⟨S13000000, .f32⟩
  | .hbm, ⟨38, _⟩ => ⟨S_, .i32⟩
  | .hbm, ⟨39, _⟩ => ⟨S13000000, .i32⟩
  | .hbm, ⟨40, _⟩ => ⟨S13000000, .i1⟩
  | .hbm, ⟨41, _⟩ => ⟨S_, .i32⟩
  | .hbm, ⟨42, _⟩ => ⟨S13000000, .i32⟩
  | .hbm, ⟨43, _⟩ => ⟨S13000000, .i32⟩
  | .hbm, ⟨44, _⟩ => ⟨S13000000, .i32⟩
  | .hbm, ⟨45, _⟩ => ⟨S13000000x1, .i32⟩
  | .hbm, ⟨46, _⟩ => ⟨S13000000, .f32⟩
  | .hbm, ⟨47, _⟩ => ⟨S13000000, .f32⟩
  | .hbm, ⟨48, _⟩ => ⟨S200000x16, .f32⟩
  | .hbm, ⟨49, _⟩ => ⟨S_, .i32⟩
  | .hbm, ⟨50, _⟩ => ⟨S13000000, .i32⟩
  | .hbm, ⟨51, _⟩ => ⟨S13000000, .i1⟩
  | .hbm, ⟨52, _⟩ => ⟨S_, .i32⟩
  | .hbm, ⟨53, _⟩ => ⟨S13000000, .i32⟩
  | .hbm, ⟨54, _⟩ => ⟨S13000000, .i32⟩
  | .hbm, ⟨55, _⟩ => ⟨S13000000, .i32⟩
  | .hbm, ⟨56, _⟩ => ⟨S13000000x1, .i32⟩
  | .hbm, ⟨57, _⟩ => ⟨S13000000x16, .f32⟩
  | .hbm, ⟨58, _⟩ => ⟨S13000000x1, .f32⟩
  | .hbm, ⟨59, _⟩ => ⟨S13000000x16, .f32⟩
  | .hbm, ⟨60, _⟩ => ⟨S13000000x16, .f32⟩
  | .hbm, ⟨61, _⟩ => ⟨S_, .f32⟩
  | .hbm, ⟨62, _⟩ => ⟨S200000x16, .f32⟩
  | .hbm, ⟨63, _⟩ => ⟨S13000000x1, .i32⟩
  | .hbm, ⟨64, _⟩ => ⟨S200000x16, .f32⟩
  | .hbm, ⟨65, _⟩ => ⟨S1x16, .f32⟩
  | .hbm, ⟨66, _⟩ => ⟨S200000x16, .f32⟩
  | .hbm, ⟨67, _⟩ => ⟨S200000x16, .f32⟩
  | .hbm, ⟨68, _⟩ => ⟨S_, .f32⟩
  | .hbm, ⟨69, _⟩ => ⟨S200000x16, .f32⟩
  | .hbm, ⟨70, _⟩ => ⟨S200000x16, .f32⟩
  | .hbm, ⟨71, _⟩ => ⟨S200000x16, .f32⟩
  | .hbm, ⟨72, _⟩ => ⟨S_, .i32⟩
  | .hbm, ⟨73, _⟩ => ⟨S13000000, .i32⟩
  | .hbm, ⟨74, _⟩ => ⟨S13000000, .i1⟩
  | .hbm, ⟨75, _⟩ => ⟨S_, .i32⟩
  | .hbm, ⟨76, _⟩ => ⟨S13000000, .i32⟩
  | .hbm, ⟨77, _⟩ => ⟨S13000000, .i32⟩
  | .hbm, ⟨78, _⟩ => ⟨S13000000, .i32⟩
  | .hbm, ⟨79, _⟩ => ⟨S13000000x1, .i32⟩
  | .hbm, ⟨80, _⟩ => ⟨S13000000x16, .f32⟩
  | .hbm, ⟨81, _⟩ => ⟨S13000000x1, .f32⟩
  | .hbm, ⟨82, _⟩ => ⟨S13000000x16, .f32⟩
  | .hbm, ⟨83, _⟩ => ⟨S13000000x16, .f32⟩
  | .hbm, ⟨84, _⟩ => ⟨S_, .f32⟩
  | .hbm, ⟨85, _⟩ => ⟨S200000x16, .f32⟩
  | .hbm, ⟨86, _⟩ => ⟨S13000000x1, .i32⟩
  | .hbm, ⟨87, _⟩ => ⟨S200000x16, .f32⟩
  | .hbm, ⟨88, _⟩ => ⟨S1x16, .f32⟩
  | .hbm, ⟨89, _⟩ => ⟨S200000x16, .f32⟩
  | .hbm, ⟨90, _⟩ => ⟨S200000x16, .f32⟩
  | .hbm, ⟨91, _⟩ => ⟨S_, .f32⟩
  | .hbm, ⟨92, _⟩ => ⟨S200000x16, .f32⟩
  | .hbm, ⟨93, _⟩ => ⟨S200000x16, .f32⟩
  | .hbm, ⟨94, _⟩ => ⟨S200000x4, .f32⟩
  | .hbm, ⟨95, _⟩ => ⟨S1x4, .f32⟩
  | .hbm, ⟨96, _⟩ => ⟨S200000x4, .f32⟩
  | .hbm, ⟨97, _⟩ => ⟨S200000x4, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  concatenates_S12800000_S200000_S13000000_d0 : Shape.Concatenates [S12800000, S200000] S13000000 0
  slices_S2x12800000_S1x12800000_1_0 : S2x12800000.Slices ![1, 0] S1x12800000
  bcast_S_S13000000 : S_.BroadcastsInDim S13000000 (![] : Fin 0 → Fin S13000000.rank)
  bcast_S_S200000 : S_.BroadcastsInDim S200000 (![] : Fin 0 → Fin S200000.rank)
  bcast_S13000000_S13000000x1_0 : S13000000.BroadcastsInDim S13000000x1 (![0] : Fin 1 → Fin S13000000x1.rank)
  bcast_S13000000x1_S13000000x16_0_1 : S13000000x1.BroadcastsInDim S13000000x16 (![0, 1] : Fin 2 → Fin S13000000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S4_S1x4_1 : S4.BroadcastsInDim S1x4 (![1] : Fin 1 → Fin S1x4.rank)
  bcast_S1x4_S200000x4_0_1 : S1x4.BroadcastsInDim S200000x4 (![0, 1] : Fin 2 → Fin S200000x4.rank)
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  dot_S200000x1_S1x16_S200000x16_1_0_0_1_n_n_wf : DotDims.WF S200000x1 S1x16 S200000x16 [1] [0] [0] [1] [] []
  gather_S200000x16_S13000000x1_S13000000x16_1_0_n_n_0_1_116_wf : GatherDims.WF S200000x16 S13000000x1 S13000000x16 [1] [0] [] [0] [] 1 ![1, 16]
  scatter_S200000x16_S13000000x1_S13000000x16_1_0_0_1_wf : ScatterDims.WF S200000x16 S13000000x1 S13000000x16 [1] [0] [0] 1
  dot_S200000x16_S16x16_S200000x16_1_0_0_1_n_n_wf : DotDims.WF S200000x16 S16x16 S200000x16 [1] [0] [0] [1] [] []
  dot_S200000x16_S16x4_S200000x4_1_0_0_1_n_n_wf : DotDims.WF S200000x16 S16x4 S200000x4 [1] [0] [0] [1] [] []

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def gather_S200000x16_S13000000x1_S13000000x16_1_0_n_n_0_1_116 : GatherDims S200000x16 S13000000x1 S13000000x16 where
  offsetDims := [1]
  collapsedSliceDims := [0]
  operandBatchingDims := []
  startIndicesBatchingDims := []
  startIndexMap := [0]
  indexVectorDim := 1
  sliceSizes := ![1, 16]
  wf := gather_S200000x16_S13000000x1_S13000000x16_1_0_n_n_0_1_116_wf
def scatter_S200000x16_S13000000x1_S13000000x16_1_0_0_1 : ScatterDims S200000x16 S13000000x1 S13000000x16 where
  updateWindowDims := [1]
  insertedWindowDims := [0]
  scatterDimsToOperandDims := [0]
  indexVectorDim := 1
  wf := scatter_S200000x16_S13000000x1_S13000000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x4_S200000x4_1_0_0_1_n_n : DotDims S200000x16 S16x4 S200000x4 where
  lhsContracting := [1]
  rhsContracting := [0]
  lhsNonContracting := [0]
  rhsNonContracting := [1]
  lhsBatch := []
  rhsBatch := []
  wf := dot_S200000x16_S16x4_S200000x4_1_0_0_1_n_n_wf

class Facts : Prop extends Facts₀ where

variable [Facts]
-- ==== Proof.Outcome.lean ====
/-
  What the whole program leaves in its result array.  The program is a chain of fifteen segments: stretches of
  host operations alternating with seven tiled regions.  Running the chain from any launch memory ends, on every
  core, with each buffer at the contents obtained by folding the segments over the launch memory; in particular the
  result array holds the last fold's contents at the result buffer, and the eight argument arrays are as launched.
-/
import proofs.«124231_j50199577755932_2_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result array at the final fold's
    contents and the arguments unchanged. -/
theorem run_out : θ_run defs (onTc (τ := τ) (main (F := F))) ⟨m, fun _ => 0, ρ⟩ (fun r => ∀ c : Dev nD,
      r.2.mem ((c.tc : Thread nD τ).loc main_v61) = W15 m ρ c (Proc.devRef .tc main_v61)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v61 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.Outcome

end
-- ==== Proof.ChainA.lean ====
/-
  The graph part of the program: the host operations before the first region build, from the edge list alone, the
  source and destination of every edge with the self loops appended, and the normalisation weight of every edge
  (one over the square root of the degree at each end, zero where the degree is not positive).  Each is the value the
  same chain of operations gives in the reference; the argument arrays are untouched.
-/
import proofs.«124231_j50199577755932_2_alg».proof.Proof.Gen.KernelIdeal.Frame
import proofs.«124231_j50199577755932_2_alg».proof.Proof.RefRead

import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Reads a buffer through the operations that ran before it: each operation's result at its own buffer is its
    function of its operands, and at any other buffer what was there. -/
local macro "read_results" : tactic =>
  `(tactic| ((try after_results_simp)
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- Nothing between boundary 0 and boundary 3 writes this buffer. -/
theorem keep_arg0_0_3 : W3 m ρ c (Proc.devRef .tc main_arg0) = W0 m ρ c (Proc.devRef .tc main_arg0) :=
  (by show StableHlo.after hostOps0_2 (W2 m ρ c) (Proc.devRef .tc main_arg0) = _; after_results_simp <;> rfl : W3 m ρ c (Proc.devRef .tc main_arg0) = W2 m ρ c (Proc.devRef .tc main_arg0)).trans
    ((by show StableHlo.after hostOps0_1 (W1 m ρ c) (Proc.devRef .tc main_arg0) = _; after_results_simp <;> rfl : W2 m ρ c (Proc.devRef .tc main_arg0) = W1 m ρ c (Proc.devRef .tc main_arg0)).trans
    ((by show StableHlo.after hostOps0 (W0 m ρ c) (Proc.devRef .tc main_arg0) = _; after_results_simp <;> rfl : W1 m ρ c (Proc.devRef .tc main_arg0) = W0 m ρ c (Proc.devRef .tc main_arg0))))

/-- Nothing between boundary 0 and boundary 3 writes this buffer. -/
theorem keep_arg2_0_3 : W3 m ρ c (Proc.devRef .tc main_arg2) = W0 m ρ c (Proc.devRef .tc main_arg2) :=
  (by show StableHlo.after hostOps0_2 (W2 m ρ c) (Proc.devRef .tc main_arg2) = _; after_results_simp <;> rfl : W3 m ρ c (Proc.devRef .tc main_arg2) = W2 m ρ c (Proc.devRef .tc main_arg2)).trans
    ((by show StableHlo.after hostOps0_1 (W1 m ρ c) (Proc.devRef .tc main_arg2) = _; after_results_simp <;> rfl : W2 m ρ c (Proc.devRef .tc main_arg2) = W1 m ρ c (Proc.devRef .tc main_arg2)).trans
    ((by show StableHlo.after hostOps0 (W0 m ρ c) (Proc.devRef .tc main_arg2) = _; after_results_simp <;> rfl : W1 m ρ c (Proc.devRef .tc main_arg2) = W0 m ρ c (Proc.devRef .tc main_arg2))))

theorem at3_arg0 : W3 m ρ c (Proc.devRef .tc main_arg0) = (m ((c : Thread nD τ).loc main_arg0)) := keep_arg0_0_3 m ρ c
theorem at3_arg2 : W3 m ρ c (Proc.devRef .tc main_arg2) = (m ((c : Thread nD τ).loc main_arg2)) := keep_arg2_0_3 m ρ c

/-! ### After the first stretch: sources, destinations, the degree test and the inverse square root of the degree -/

/-- The edge sources with the self loops appended. -/
theorem at1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  read_results
  unfold Cert.ReferenceIdeal.ReadP.val_main_v3 Cert.ReferenceIdeal.ReadP.val_main_v2 Cert.ReferenceIdeal.ReadP.val_main_v0 Cert.ReferenceIdeal.ReadP.val_main_v1
  rfl

/-- The edge destinations with the self loops appended. -/
theorem at1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  read_results
  unfold Cert.ReferenceIdeal.ReadP.val_main_v6 Cert.ReferenceIdeal.ReadP.val_main_v5 Cert.ReferenceIdeal.ReadP.val_main_v0 Cert.ReferenceIdeal.ReadP.val_main_v4
  rfl

/-- Which nodes have positive degree. -/
theorem at1_v12 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  read_results
  unfold Cert.ReferenceIdeal.ReadP.val_main_v12 Cert.ReferenceIdeal.ReadP.val_main_v10 Cert.ReferenceIdeal.ReadP.val_main_v11 Cert.ReferenceIdeal.ReadP.val_main_v8 Cert.ReferenceIdeal.ReadP.val_main_v9 Cert.ReferenceIdeal.ReadP.val_main_v7 Cert.ReferenceIdeal.ReadP.val_main_cst_1 Cert.ReferenceIdeal.ReadP.val_main_cst_0 Cert.ReferenceIdeal.ReadP.val_main_v6 Cert.ReferenceIdeal.ReadP.val_main_cst Cert.ReferenceIdeal.ReadP.val_main_v5 Cert.ReferenceIdeal.ReadP.val_main_v0 Cert.ReferenceIdeal.ReadP.val_main_v4
  rfl

/-- One over the square root of every node's degree. -/
theorem at1_v13 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  read_results
  unfold Cert.ReferenceIdeal.ReadP.val_main_v13 Cert.ReferenceIdeal.ReadP.val_main_v10 Cert.ReferenceIdeal.ReadP.val_main_v8 Cert.ReferenceIdeal.ReadP.val_main_v9 Cert.ReferenceIdeal.ReadP.val_main_v7 Cert.ReferenceIdeal.ReadP.val_main_cst_0 Cert.ReferenceIdeal.ReadP.val_main_v6 Cert.ReferenceIdeal.ReadP.val_main_cst Cert.ReferenceIdeal.ReadP.val_main_v5 Cert.ReferenceIdeal.ReadP.val_main_v0 Cert.ReferenceIdeal.ReadP.val_main_v4
  rfl

/-- The zero that replaces the inverse square root where the degree is not positive. -/
theorem at1_cst_2 : W1 m ρ c (Proc.devRef .tc main_cst_2) = Cert.ReferenceIdeal.ReadP.val_main_cst_2 (F := Ideal) := by
  show StableHlo.after hostOps0 (W0 m ρ c) (Proc.devRef .tc main_cst_2) = _
  read_results
  unfold Cert.ReferenceIdeal.ReadP.val_main_cst_2
  rfl

/-! ### A buffer's contents read at the buffer's own type are the contents -/

theorem to_v14 (h1 : main_v14.ty = (⟨S200000, .f32⟩ : BufTy)) (h2) (h3) (v : (⟨S200000, .f32⟩ : BufTy).Contents (Elt Ideal)) :
    (TRef.of (sig := sig) (T := ⟨S200000, .f32⟩) main_v14 h1 h2 h3).toBuf (Val := Elt Ideal) v = v := rfl
theorem of_v12 (h1 : main_v12.ty = (⟨S200000, .i1⟩ : BufTy)) (h2) (h3) (v : main_v12.ty.Contents (Elt Ideal)) :
    (TRef.of (sig := sig) (T := ⟨S200000, .i1⟩) main_v12 h1 h2 h3).ofBuf (Val := Elt Ideal) v = v := rfl
theorem of_v13 (h1 : main_v13.ty = (⟨S200000, .f32⟩ : BufTy)) (h2) (h3) (v : main_v13.ty.Contents (Elt Ideal)) :
    (TRef.of (sig := sig) (T := ⟨S200000, .f32⟩) main_v13 h1 h2 h3).ofBuf (Val := Elt Ideal) v = v := rfl
theorem to_call0_v1 (h1 : main_call0_v1.ty = (⟨S200000, .f32⟩ : BufTy)) (h2) (h3) (v : (⟨S200000, .f32⟩ : BufTy).Contents (Elt Ideal)) :
    (TRef.of (sig := sig) (T := ⟨S200000, .f32⟩) main_call0_v1 h1 h2 h3).toBuf (Val := Elt Ideal) v = v := rfl
theorem of_call0_v1 (h1 : main_call0_v1.ty = (⟨S200000, .f32⟩ : BufTy)) (h2) (h3) (v : main_call0_v1.ty.Contents (Elt Ideal)) :
    (TRef.of (sig := sig) (T := ⟨S200000, .f32⟩) main_call0_v1 h1 h2 h3).ofBuf (Val := Elt Ideal) v = v := rfl
theorem to_call0_v0 (h1 : main_call0_v0.ty = (⟨S_, .f32⟩ : BufTy)) (h2) (h3) (v : (⟨S_, .f32⟩ : BufTy).Contents (Elt Ideal)) :
    (TRef.of (sig := sig) (T := ⟨S_, .f32⟩) main_call0_v0 h1 h2 h3).toBuf (Val := Elt Ideal) v = v := rfl
theorem of_call0_v0 (h1 : main_call0_v0.ty = (⟨S_, .f32⟩ : BufTy)) (h2) (h3) (v : main_call0_v0.ty.Contents (Elt Ideal)) :
    (TRef.of (sig := sig) (T := ⟨S_, .f32⟩) main_call0_v0 h1 h2 h3).ofBuf (Val := Elt Ideal) v = v := rfl
theorem of_cst_2 (h1 : main_cst_2.ty = (⟨S_, .f32⟩ : BufTy)) (h2) (h3) (v : main_cst_2.ty.Contents (Elt Ideal)) :
    (TRef.of (sig := sig) (T := ⟨S_, .f32⟩) main_cst_2 h1 h2 h3).ofBuf (Val := Elt Ideal) v = v := rfl

/-! ### After the selection -/

/-- Nothing between boundary 1 and boundary 3 writes this buffer. -/
theorem keep_v3_1_3 : W3 m ρ c (Proc.devRef .tc main_v3) = W1 m ρ c (Proc.devRef .tc main_v3) :=
  (by show StableHlo.after hostOps0_2 (W2 m ρ c) (Proc.devRef .tc main_v3) = _; after_results_simp <;> rfl : W3 m ρ c (Proc.devRef .tc main_v3) = W2 m ρ c (Proc.devRef .tc main_v3)).trans
    ((by show StableHlo.after hostOps0_1 (W1 m ρ c) (Proc.devRef .tc main_v3) = _; after_results_simp <;> rfl : W2 m ρ c (Proc.devRef .tc main_v3) = W1 m ρ c (Proc.devRef .tc main_v3)))

/-- Nothing between boundary 1 and boundary 3 writes this buffer. -/
theorem keep_v6_1_3 : W3 m ρ c (Proc.devRef .tc main_v6) = W1 m ρ c (Proc.devRef .tc main_v6) :=
  (by show StableHlo.after hostOps0_2 (W2 m ρ c) (Proc.devRef .tc main_v6) = _; after_results_simp <;> rfl : W3 m ρ c (Proc.devRef .tc main_v6) = W2 m ρ c (Proc.devRef .tc main_v6)).trans
    ((by show StableHlo.after hostOps0_1 (W1 m ρ c) (Proc.devRef .tc main_v6) = _; after_results_simp <;> rfl : W2 m ρ c (Proc.devRef .tc main_v6) = W1 m ρ c (Proc.devRef .tc main_v6)))

theorem at3_v3 : W3 m ρ c (Proc.devRef .tc main_v3) = Cert.ReferenceIdeal.ReadP.val_main_v3 (F := Ideal) (m ((c : Thread nD τ).loc main_arg1)) := (keep_v3_1_3 m ρ c).trans (at1_v3 m ρ c)
theorem at3_v6 : W3 m ρ c (Proc.devRef .tc main_v6) = Cert.ReferenceIdeal.ReadP.val_main_v6 (F := Ideal) (m ((c : Thread nD τ).loc main_arg1)) := (keep_v6_1_3 m ρ c).trans (at1_v6 m ρ c)
/-- Nothing between boundary 1 and boundary 2 writes this buffer. -/
theorem keep_v3_1_2 : W2 m ρ c (Proc.devRef .tc main_v3) = W1 m ρ c (Proc.devRef .tc main_v3) :=
  (by show StableHlo.after hostOps0_1 (W1 m ρ c) (Proc.devRef .tc main_v3) = _; after_results_simp <;> rfl : W2 m ρ c (Proc.devRef .tc main_v3) = W1 m ρ c (Proc.devRef .tc main_v3))

/-- Nothing between boundary 1 and boundary 2 writes this buffer. -/
theorem keep_v6_1_2 : W2 m ρ c (Proc.devRef .tc main_v6) = W1 m ρ c (Proc.devRef .tc main_v6) :=
  (by show StableHlo.after hostOps0_1 (W1 m ρ c) (Proc.devRef .tc main_v6) = _; after_results_simp <;> rfl : W2 m ρ c (Proc.devRef .tc main_v6) = W1 m ρ c (Proc.devRef .tc main_v6))

/-- The inverse square root of the degree where it is positive, zero elsewhere. -/
theorem at2_v14 : W2 m ρ c (Proc.devRef .tc main_v14) = Cert.ReferenceIdeal.ReadP.val_main_v14 (F := Ideal) (m ((c : Thread nD τ).loc main_arg1)) := by
  show StableHlo.after hostOps0_1 (W1 m ρ c) (Proc.devRef .tc main_v14) = _
  have e12 := at1_v12 m ρ c
  have e13 := at1_v13 m ρ c
  have ec := at1_cst_2 m ρ c
  generalize W1 m ρ c = V1 at e12 e13 ec ⊢
  read_results
  rw [to_v14, of_v12, of_v13, of_call0_v1, to_call0_v1, of_call0_v0, to_call0_v0, of_cst_2]
  rw [e12, e13, ec]
  unfold Cert.ReferenceIdeal.ReadP.val_main_v14 Cert.ReferenceIdeal.ReadP.val_main_call0_v1 Cert.ReferenceIdeal.ReadP.val_main_call0_v0
  rfl

/-! ### After the third stretch -/

/-- The normalisation weight of every edge: the selected value at its source times the one at its destination. -/
theorem at3_v29 : W3 m ρ c (Proc.devRef .tc main_v29) = Cert.ReferenceIdeal.ReadP.val_main_v29 (F := Ideal) (m ((c : Thread nD τ).loc main_arg1)) := by
  show StableHlo.after hostOps0_2 (W2 m ρ c) (Proc.devRef .tc main_v29) = _
  have e14 := at2_v14 m ρ c
  have e3 := (keep_v3_1_2 m ρ c).trans (at1_v3 m ρ c)
  have e6 := (keep_v6_1_2 m ρ c).trans (at1_v6 m ρ c)
  generalize W2 m ρ c = V2 at e14 e3 e6 ⊢
  read_results
  rw [e14, e3, e6]
  unfold Cert.ReferenceIdeal.ReadP.val_main_v29 Cert.ReferenceIdeal.ReadP.val_main_v21 Cert.ReferenceIdeal.ReadP.val_main_v28 Cert.ReferenceIdeal.ReadP.val_main_v20 Cert.ReferenceIdeal.ReadP.val_main_v27 Cert.ReferenceIdeal.ReadP.val_main_v19 Cert.ReferenceIdeal.ReadP.val_main_v26 Cert.ReferenceIdeal.ReadP.val_main_v16 Cert.ReferenceIdeal.ReadP.val_main_v18 Cert.ReferenceIdeal.ReadP.val_main_v23 Cert.ReferenceIdeal.ReadP.val_main_v25 Cert.ReferenceIdeal.ReadP.val_main_v15 Cert.ReferenceIdeal.ReadP.val_main_v17 Cert.ReferenceIdeal.ReadP.val_main_v22 Cert.ReferenceIdeal.ReadP.val_main_v24 Cert.ReferenceIdeal.ReadP.val_main_c Cert.ReferenceIdeal.ReadP.val_main_c_3 Cert.ReferenceIdeal.ReadP.val_main_c_4 Cert.ReferenceIdeal.ReadP.val_main_c_5
  rfl

end Cert.KernelIdeal.Chain

end
-- ==== Proof.Tiles0.lean ====
/-
  The first node transform, tile by tile.  The node features form a 200000 x 1 array and the weight a 1 x 16 array;
  the grid has 40 points, and point t multiplies rows 5000 t .. 5000 t + 4999 of the features by the whole weight.
  An entry (r, j) of a tile's product is the sum over the one contracted position k of x(r, k) * w(k, j), which is
  entry (5000 t + r, j) of the product of the whole arrays; the 40 tiles cover all 200000 rows, so the array the
  region leaves is the whole product.
-/
import proofs.«124231_j50199577755932_2_alg».proof.Proof.Gen.KernelIdeal.Frame
import proofs.«124231_j50199577755932_2_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Tiles0

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- Row r, contracted position k of a left tile. -/
abbrev lpos (y : S5000x16.Idx) (k : Fin 1) : S5000x1.Idx := fun a => match a with
  | ⟨0, _⟩ => ⟨(y 0).val, (y 0).isLt⟩
  | ⟨1, _⟩ => ⟨k.val, k.isLt⟩
/-- Contracted position k, column j of the weight. -/
abbrev rpos (y : S5000x16.Idx) (k : Fin 1) : S1x16.Idx := fun a => match a with
  | ⟨0, _⟩ => ⟨k.val, k.isLt⟩
  | ⟨1, _⟩ => ⟨(y 1).val, (y 1).isLt⟩

theorem lhs_0 (i : S5000x16.Idx) (q : dot_S5000x1_S1x16_S5000x16_1_0_0_1_n_n.contr.Idx) :
    (dot_S5000x1_S1x16_S5000x16_1_0_0_1_n_n.lhsIdx i q 0).val = (i 0).val := by
  unfold DotDims.lhsIdx
  rw [dif_neg (show ¬(0 : Fin S5000x1.rank) ∈ dot_S5000x1_S1x16_S5000x16_1_0_0_1_n_n.lhsBatch by decide), dif_pos (show (0 : Fin S5000x1.rank) ∈ dot_S5000x1_S1x16_S5000x16_1_0_0_1_n_n.lhsNonContracting by decide)]
  rfl
theorem lhs_1 (i : S5000x16.Idx) (q : dot_S5000x1_S1x16_S5000x16_1_0_0_1_n_n.contr.Idx) :
    (dot_S5000x1_S1x16_S5000x16_1_0_0_1_n_n.lhsIdx i q 1).val = (q ⟨0, by decide⟩).val :=
  dot_S5000x1_S1x16_S5000x16_1_0_0_1_n_n.lhsIdx_val_of_single rfl i q
theorem rhs_0 (i : S5000x16.Idx) (q : dot_S5000x1_S1x16_S5000x16_1_0_0_1_n_n.contr.Idx) :
    (dot_S5000x1_S1x16_S5000x16_1_0_0_1_n_n.rhsIdx i q 0).val = (q ⟨0, by decide⟩).val :=
  dot_S5000x1_S1x16_S5000x16_1_0_0_1_n_n.rhsIdx_val_of_single rfl i q
theorem rhs_1 (i : S5000x16.Idx) (q : dot_S5000x1_S1x16_S5000x16_1_0_0_1_n_n.contr.Idx) :
    (dot_S5000x1_S1x16_S5000x16_1_0_0_1_n_n.rhsIdx i q 1).val = (i 1).val := by
  unfold DotDims.rhsIdx
  rw [dif_neg (show ¬(1 : Fin S1x16.rank) ∈ dot_S5000x1_S1x16_S5000x16_1_0_0_1_n_n.rhsBatch by decide), dif_pos (show (1 : Fin S1x16.rank) ∈ dot_S5000x1_S1x16_S5000x16_1_0_0_1_n_n.rhsNonContracting by decide)]
  rfl

/-- An entry of a tile's result: the sum over the contracted position of left entry times weight entry. -/
theorem tile_apply (v0 : Vec Ideal S5000x1 .f32) (v2 : Vec Ideal S1x16 .f32) (y : S5000x16.Idx) :
    k0_pay1 (F := Ideal) v0 v2 y = ∑ k : Fin 1, v0 (lpos y k) * v2 (rpos y k) := by
  unfold k0_pay1
  show FloatOps.matmul (F := Ideal) dot_S5000x1_S1x16_S5000x16_1_0_0_1_n_n none v0 v2 (constant S5000x16 .f32 0x00000000#32) y = _
  refine (Ideal.matmul_constant_zero_apply dot_S5000x1_S1x16_S5000x16_1_0_0_1_n_n none v0 v2 y).trans ?_
  rw [← Equiv.sum_comp (ValueIdx.contrEquiv1 dot_S5000x1_S1x16_S5000x16_1_0_0_1_n_n 1 rfl rfl).symm]
  refine Finset.sum_congr rfl fun k _ => ?_
  have hk := ValueIdx.contrEquiv1_symm_val dot_S5000x1_S1x16_S5000x16_1_0_0_1_n_n 1 rfl rfl k
  have el : dot_S5000x1_S1x16_S5000x16_1_0_0_1_n_n.lhsIdx y ((ValueIdx.contrEquiv1 dot_S5000x1_S1x16_S5000x16_1_0_0_1_n_n 1 rfl rfl).symm k) = lpos y k := funext fun a => Fin.ext (by
    match a with
    | ⟨0, _⟩ => exact lhs_0 _ _
    | ⟨1, _⟩ => exact (lhs_1 _ _).trans hk)
  have er : dot_S5000x1_S1x16_S5000x16_1_0_0_1_n_n.rhsIdx y ((ValueIdx.contrEquiv1 dot_S5000x1_S1x16_S5000x16_1_0_0_1_n_n 1 rfl rfl).symm k) = rpos y k := funext fun a => Fin.ext (by
    match a with
    | ⟨0, _⟩ => exact (rhs_0 _ _).trans hk
    | ⟨1, _⟩ => exact rhs_1 _ _)
  rw [el, er]

/-- The product of the whole arrays. -/
abbrev whole (H : S200000x1.Idx → Elt Ideal .f32) (W : S1x16.Idx → Elt Ideal .f32) : S200000x16.Idx → Elt Ideal .f32 :=
  Host.dotGeneral (F := Ideal) (φ₁ := .f32) (φ₂ := .f32) Cert.ReferenceIdeal.dot_S200000x1_S1x16_S200000x16_1_0_0_1_n_n none H W

/-- An entry of the whole product is the same sum over the whole arrays. -/
theorem prod_apply (H : S200000x1.Idx → Elt Ideal .f32) (W : S1x16.Idx → Elt Ideal .f32) (i : S200000x16.Idx) :
    Host.dotGeneral (F := Ideal) (φ₁ := .f32) (φ₂ := .f32) Cert.ReferenceIdeal.dot_S200000x1_S1x16_S200000x16_1_0_0_1_n_n none H W i
      = ∑ k : Fin 1, H (Cert.ReferenceIdeal.ReadP.lidx_main_v30 i k) * W (Cert.ReferenceIdeal.ReadP.ridx_main_v30 i k) := by
  simp only [Host.dotGeneral]
  rw [Ideal.dotGeneral_apply]
  rw [← Equiv.sum_comp (ValueIdx.contrEquiv1 Cert.ReferenceIdeal.dot_S200000x1_S1x16_S200000x16_1_0_0_1_n_n 1 rfl rfl).symm]
  refine Finset.sum_congr rfl fun k _ => ?_
  have hk := ValueIdx.contrEquiv1_symm_val Cert.ReferenceIdeal.dot_S200000x1_S1x16_S200000x16_1_0_0_1_n_n 1 rfl rfl k
  have el : Cert.ReferenceIdeal.dot_S200000x1_S1x16_S200000x16_1_0_0_1_n_n.lhsIdx i ((ValueIdx.contrEquiv1 Cert.ReferenceIdeal.dot_S200000x1_S1x16_S200000x16_1_0_0_1_n_n 1 rfl rfl).symm k) = Cert.ReferenceIdeal.ReadP.lidx_main_v30 i k := funext fun a => Fin.ext (by
    match a with
    | ⟨0, _⟩ => exact Cert.ReferenceIdeal.ReadP.lhs_main_v30_0 _ _
    | ⟨1, _⟩ => exact (Cert.ReferenceIdeal.ReadP.lhs_main_v30_1 _ _).trans hk)
  have er : Cert.ReferenceIdeal.dot_S200000x1_S1x16_S200000x16_1_0_0_1_n_n.rhsIdx i ((ValueIdx.contrEquiv1 Cert.ReferenceIdeal.dot_S200000x1_S1x16_S200000x16_1_0_0_1_n_n 1 rfl rfl).symm k) = Cert.ReferenceIdeal.ReadP.ridx_main_v30 i k := funext fun a => Fin.ext (by
    match a with
    | ⟨0, _⟩ => exact (Cert.ReferenceIdeal.ReadP.rhs_main_v30_0 _ _).trans hk
    | ⟨1, _⟩ => exact Cert.ReferenceIdeal.ReadP.rhs_main_v30_1 _ _)
  rw [el, er]

variable (V : (c : Dev nD) → (b : Ref sig .tc) → Buf (Elt Ideal) ((c : Thread nD τ).loc b))

/-- Where each window's block sits at grid point t: the left tile and the result tile at row block t, the rest whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the whole result. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S5000x1) hz, View.ld_unit_zero (S := S1x16) hz]
  obtain ⟨e0, e1, e2, e3, e4, e5⟩ := idx_facts t
  funext y
  show k0_pay1 (F := Ideal) (iblk0 V c 0 t) (iblk0 V c 1 t) y = whole (V c main_arg0) (V c main_arg2) (((cfg0.win 2).blk t).view.emb y)
  refine (tile_apply (iblk0 V c 0 t) (iblk0 V c 1 t) y).trans ?_
  refine Eq.trans ?_ (prod_apply (V c main_arg0) (V c main_arg2) (((cfg0.win 2).blk t).view.emb y)).symm
  refine Finset.sum_congr rfl fun k _ => ?_
  have hl : ((cfg0.win 0).blk t).view.emb (lpos y k) = Cert.ReferenceIdeal.ReadP.lidx_main_v30 (((cfg0.win 2).blk t).view.emb y) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 1 + 1 * k.val = k.val; omega
  have hr : ((cfg0.win 1).blk t).view.emb (rpos y k) = Cert.ReferenceIdeal.ReadP.ridx_main_v30 (((cfg0.win 2).blk t).view.emb y) k := by
    funext a; apply Fin.ext
    match a with
    | ⟨0, _⟩ => show win0_1.index t (0 : Fin 2) * 1 + 1 * k.val = k.val; omega
    | ⟨1, _⟩ => show win0_1.index t (1 : Fin 2) * 16 + 1 * (y 1).val = win0_2.index t (1 : Fin 2) * 16 + 1 * (y 1).val; omega
  rw [← hl, ← hr]
  rfl

/-- An index of the result array lies in point t's tile iff each coordinate is in the tile's range. -/
theorem mem_blk (t : Fin cfg0.N) (i : S200000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Row r of the result array lies in the tile of point r / 5000. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : grid0.N = 40 := N_0
  have ht : (i 0).val / 5000 < grid0.N := by omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e5]; omega

/-- The array the region leaves is the whole result of the arrays as the region found them. -/
theorem final (c : Dev nD) : (dat0 V c).arrAt 2 cfg0.N = whole (V c main_arg0) (V c main_arg2) :=
  (dat0 V c).arrAt_eq_of_cover 2 _ (fun t _ => flushed_eq V c t) cover

end Cert.KernelIdeal.Tiles0

end
-- ==== Proof.Tiles1.lean ====
/-
  Scaling the gathered messages, tile by tile.  The messages form a 13000000 x 16 array and the edge weights a
  13000000 x 1 column; the grid has 1300 points, and point t multiplies each of rows 10000 t .. 10000 t + 9999 of the
  messages by that row's weight.  Entry (r, j) of a tile is message (r, j) times weight (r, 0), the same rule on
  every tile, and the 1300 tiles cover all rows: the array the region leaves is the messages scaled row by row.
-/
import proofs.«124231_j50199577755932_2_alg».proof.Proof.Gen.KernelIdeal.Frame
import Idealize.ShloMosaic.Lib.Pipeline.Value
import Idealize.ShloMosaic.Lib.ValueIdx

set_option maxRecDepth 16384

noncomputable section

namespace Cert.KernelIdeal.Tiles1

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The weight position of a message row, in the whole arrays. -/
abbrev rowPos (i : S13000000x16.Idx) : S13000000x1.Idx := fun a => match a with
  | ⟨0, _⟩ => ⟨(i 0).val, (i 0).isLt⟩
  | ⟨1, _⟩ => ⟨0, Nat.one_pos⟩
/-- The same inside a tile. -/
abbrev rowPosB (y : S10000x16.Idx) : S10000x1.Idx := fun a => match a with
  | ⟨0, _⟩ => ⟨(y 0).val, (y 0).isLt⟩
  | ⟨1, _⟩ => ⟨0, Nat.one_pos⟩

/-- The messages scaled row by row: entry (r, j) is message (r, j) times weight (r, 0). -/
abbrev scaled (M : S13000000x16.Idx → Elt Ideal .f32) (n : S13000000x1.Idx → Elt Ideal .f32) : S13000000x16.Idx → Elt Ideal .f32 :=
  fun i => FloatOps.mulf (F := Ideal) (φ := .f32) (M i) (n (rowPos i))

/-- An entry of a tile's result is the message entry times its row's weight. -/
theorem tile_apply (v0 : Vec Ideal S10000x1 .f32) (v4 : Vec Ideal S10000x16 .f32) (y : S10000x16.Idx) :
    k1_pay1 (F := Ideal) v0 v4 y = FloatOps.mulf (F := Ideal) (φ := .f32) (v4 y) (v0 (rowPosB y)) := by
  unfold k1_pay1
  show FloatOps.mulf (F := Ideal) (φ := .f32) (shapeCast S10000x16 v4 shapeCasts_S10000x16_S10000x16 y)
      (broadcastTo S10000x16 (shapeCast S10000x1 (shapeCast S10000x1 v0 shapeCasts_S10000x1_S10000x1) shapeCasts_S10000x1_S10000x1) broadcasts_S10000x1_S10000x16 y) = _
  rw [shapeCast_self, shapeCast_self, shapeCast_self]
  refine congrArg (FloatOps.mulf (F := Ideal) (φ := .f32) (v4 y)) ?_
  refine broadcastTo_apply v0 broadcasts_S10000x1_S10000x16 y (rowPosB y) fun a => ?_
  match a with
  | ⟨0, _⟩ => rfl
  | ⟨1, _⟩ => rfl

variable (V : (c : Dev nD) → (b : Ref sig .tc) → Buf (Elt Ideal) ((c : Thread nD τ).loc b))

/-- Where each window's block sits at grid point t: all three at row block t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is tile t of the scaled messages. -/
theorem flushed_eq (c : Dev nD) (t : Fin cfg1.N) :
    (dat1 V c).flushed 2 t = ((cfg1.win 2).blk t).view.read (Elt Ideal) (scaled (V c main_v37) (V c main_v38)) := by
  show (cfg1.win 2).cut (grid1.coords t) ((dat1 V c).after 2 t) = _
  rw [after1_2]
  unfold out1_2
  rw [View.canon_unit_zero hz]
  simp only [View.ld_unit_zero (S := S10000x1) hz, View.ld_unit_zero (S := S10000x16) hz]
  obtain ⟨e0, e1, e2, e3, e4, e5⟩ := idx_facts t
  funext y
  show k1_pay1 (F := Ideal) (iblk1 V c 1 t) (iblk1 V c 0 t) y
    = FloatOps.mulf (F := Ideal) (φ := .f32) (V c main_v37 (((cfg1.win 2).blk t).view.emb y)) (V c main_v38 (rowPos (((cfg1.win 2).blk t).view.emb y)))
  refine (tile_apply (iblk1 V c 1 t) (iblk1 V c 0 t) y).trans ?_
  have h0 : ((cfg1.win 0).blk t).view.emb y = ((cfg1.win 2).blk t).view.emb y := by
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 16 + 1 * (y 1).val = win1_2.index t (1 : Fin 2) * 16 + 1 * (y 1).val; omega
  have h1 : ((cfg1.win 1).blk t).view.emb (rowPosB y) = rowPos (((cfg1.win 2).blk t).view.emb y) := by
    funext a; apply Fin.ext
    match a with
    | ⟨0, _⟩ => show win1_1.index t (0 : Fin 2) * 10000 + 1 * (y 0).val = win1_2.index t (0 : Fin 2) * 10000 + 1 * (y 0).val; omega
    | ⟨1, _⟩ => show win1_1.index t (1 : Fin 2) * 1 + 1 * 0 = 0; omega
  show FloatOps.mulf (F := Ideal) (φ := .f32) (V c main_v37 (((cfg1.win 0).blk t).view.emb y)) (V c main_v38 (((cfg1.win 1).blk t).view.emb (rowPosB y))) = _
  rw [h0, h1]

/-- An index of the result array lies in point t's tile iff each coordinate is in the tile's range. -/
theorem mem_blk (t : Fin cfg1.N) (i : S13000000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v39).slice (win1_2.rect t)).set ↔ _
  rw [View.set_slice_whole, Rect.mem_set_unit]
  exact Iff.rfl

/-- Row r of the result array lies in the tile of point r / 10000. -/
theorem cover (i : S13000000x16.Idx) : ∃ t : Fin cfg1.N, (cfg1.win 2).flush t = true ∧ i ∈ ((cfg1.win 2).blk t).view.set := by
  have hi0 : (i 0).val < 13000000 := (i 0).isLt
  have hi1 : (i 1).val < 16 := (i 1).isLt
  have hN : grid1.N = 1300 := N_1
  have ht : (i 0).val / 10000 < grid1.N := by omega
  obtain ⟨e0, e1, e2, e3, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val ∧ (i 1).val < win1_2.index ⟨(i 0).val / 10000, ht⟩ (1 : Fin 2) * 16 + 16
    rw [e5]; omega

/-- The array the region leaves is the messages, as the region found them, scaled row by row. -/
theorem final (c : Dev nD) : (dat1 V c).arrAt 2 cfg1.N = scaled (V c main_v37) (V c main_v38) :=
  (dat1 V c).arrAt_eq_of_cover 2 _ (fun t _ => flushed_eq V c t) cover

end Cert.KernelIdeal.Tiles1

end
-- ==== Proof.ChainB.lean ====
/-
  The first graph convolution up to the scaled messages.  The first region multiplies the node features by the first
  weight; the host then gathers, for every edge, the transformed features of its source node and reshapes the edge
  weights into a column; the second region scales each gathered row by its edge's weight.  At each step the buffer
  holds the value the reference's corresponding operations give.
-/
import proofs.«124231_j50199577755932_2_alg».proof.Proof.Gen.KernelIdeal.Frame
import proofs.«124231_j50199577755932_2_alg».proof.Proof.RefRead
import proofs.«124231_j50199577755932_2_alg».proof.Proof.ChainA
import proofs.«124231_j50199577755932_2_alg».proof.Proof.Tiles0
import proofs.«124231_j50199577755932_2_alg».proof.Proof.Tiles1
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Reads a buffer through the operations that ran before it: each operation's result at its own buffer is its
    function of its operands, and at any other buffer what was there. -/
local macro "read_results" : tactic =>
  `(tactic| ((try after_results_simp)
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- The transformed node features: the product of the feature array and the first weight. -/
theorem at4_v30 : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ?_
  refine (Tiles0.final (V3 m ρ) c).trans ?_
  show Tiles0.whole (W3 m ρ c (Proc.devRef .tc main_arg0)) (W3 m ρ c (Proc.devRef .tc main_arg2)) = _
  rw [at3_arg0, at3_arg2]
  rfl

/-- Nothing between boundary 3 and boundary 4 writes this buffer. -/
theorem keep_v3_3_4 : W4 m ρ c (Proc.devRef .tc main_v3) = W3 m ρ c (Proc.devRef .tc main_v3) :=
  (W4_of_ne m ρ c main_v3 (by decide))

/-- Nothing between boundary 3 and boundary 4 writes this buffer. -/
theorem keep_v29_3_4 : W4 m ρ c (Proc.devRef .tc main_v29) = W3 m ρ c (Proc.devRef .tc main_v29) :=
  (W4_of_ne m ρ c main_v29 (by decide))

/-- The gathered rows: for every edge the transformed features of its source node. -/
theorem at5_v37 : W5 m ρ c (Proc.devRef .tc main_v37) = Cert.ReferenceIdeal.ReadP.val_main_v37 (F := Ideal) (m ((c : Thread nD τ).loc main_arg0)) (m ((c : Thread nD τ).loc main_arg1)) (m ((c : Thread nD τ).loc main_arg2)) := by
  show StableHlo.after hostOps1 (W4 m ρ c) (Proc.devRef .tc main_v37) = _
  read_results
  rw [at4_v30, keep_v3_3_4, at3_v3]
  unfold Cert.ReferenceIdeal.ReadP.val_main_v37 Cert.ReferenceIdeal.ReadP.val_main_v36 Cert.ReferenceIdeal.ReadP.val_main_v35 Cert.ReferenceIdeal.ReadP.val_main_v32 Cert.ReferenceIdeal.ReadP.val_main_v34 Cert.ReferenceIdeal.ReadP.val_main_v31 Cert.ReferenceIdeal.ReadP.val_main_v33 Cert.ReferenceIdeal.ReadP.val_main_c_6 Cert.ReferenceIdeal.ReadP.val_main_c_7
  rfl

/-- The edge weights as a column. -/
theorem at5_v38 : W5 m ρ c (Proc.devRef .tc main_v38)
    = (fun i => shapeCast S13000000x1 (Cert.ReferenceIdeal.ReadP.val_main_v29 (F := Ideal) (m ((c : Thread nD τ).loc main_arg1))) shapeCasts_S13000000_S13000000x1 i) := by
  show StableHlo.after hostOps1 (W4 m ρ c) (Proc.devRef .tc main_v38) = _
  read_results
  rw [keep_v29_3_4, at3_v29]
  rfl

/-- The scaled messages: each gathered row times its edge's weight. -/
theorem at6_v39 : W6 m ρ c (Proc.devRef .tc main_v39) = Cert.ReferenceIdeal.ReadP.val_main_v40 (F := Ideal) (m ((c : Thread nD τ).loc main_arg0)) (m ((c : Thread nD τ).loc main_arg1)) (m ((c : Thread nD τ).loc main_arg2)) := by
  refine (W6_arr m ρ c 2).trans ?_
  refine (Tiles1.final (V5 m ρ) c).trans ?_
  show Tiles1.scaled (W5 m ρ c (Proc.devRef .tc main_v37)) (W5 m ρ c (Proc.devRef .tc main_v38)) = _
  rw [at5_v37, at5_v38]
  funext i
  show FloatOps.mulf (F := Ideal) (φ := .f32) (Cert.ReferenceIdeal.ReadP.val_main_v37 (F := Ideal) (m ((c : Thread nD τ).loc main_arg0)) (m ((c : Thread nD τ).loc main_arg1)) (m ((c : Thread nD τ).loc main_arg2)) i)
    (shapeCast S13000000x1 (Cert.ReferenceIdeal.ReadP.val_main_v29 (F := Ideal) (m ((c : Thread nD τ).loc main_arg1))) shapeCasts_S13000000_S13000000x1 (Tiles1.rowPos i)) = _
  refine Eq.trans ?_ (Cert.ReferenceIdeal.ReadP.val_main_v40_apply (m ((c : Thread nD τ).loc main_arg0)) (m ((c : Thread nD τ).loc main_arg1)) (m ((c : Thread nD τ).loc main_arg2)) i).symm
  refine congrArg (FloatOps.mulf (F := Ideal) (φ := .f32) (Cert.ReferenceIdeal.ReadP.val_main_v37 (F := Ideal) (m ((c : Thread nD τ).loc main_arg0)) (m ((c : Thread nD τ).loc main_arg1)) (m ((c : Thread nD τ).loc main_arg2)) i)) ?_
  rw [Cert.ReferenceIdeal.ReadP.val_main_v39_apply, Cert.ReferenceIdeal.ReadP.val_main_v38_apply]
  refine shapeCast_apply _ _ _ _ ?_
  rw [Shape.rowMajor_val_one, Shape.rowMajor_val_two]
  show (i 0).val = (i 0).val * 1 + 0
  omega

end Cert.KernelIdeal.Chain

end
-- ==== Proof.Tiles2.lean ====
/-
  Adding the bias and clamping at zero, tile by tile.  The aggregated features form a 200000 x 16 array and the bias
  a 1 x 16 row; the grid has 40 points, and point t adds the bias row to each of rows 5000 t .. 5000 t + 4999 and
  takes the maximum with zero.  Entry (r, j) of a tile is max(a(r, j) + b(0, j), 0), the same rule on every tile,
  and the 40 tiles cover all rows.
-/
import proofs.«124231_j50199577755932_2_alg».proof.Proof.Gen.KernelIdeal.Frame
import Idealize.ShloMosaic.Lib.Pipeline.Value
import Idealize.ShloMosaic.Lib.ValueIdx

set_option maxRecDepth 16384

noncomputable section

namespace Cert.KernelIdeal.Tiles2

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The bias position of a feature column, in the whole arrays. -/
abbrev colPos (i : S200000x16.Idx) : S1x16.Idx := fun a => match a with
  | ⟨0, _⟩ => ⟨0, Nat.one_pos⟩
  | ⟨1, _⟩ => ⟨(i 1).val, (i 1).isLt⟩
/-- The same inside a tile. -/
abbrev colPosB (y : S5000x16.Idx) : S1x16.Idx := fun a => match a with
  | ⟨0, _⟩ => ⟨0, Nat.one_pos⟩
  | ⟨1, _⟩ => ⟨(y 1).val, (y 1).isLt⟩

/-- The features with the bias row added and clamped at zero: entry (r, j) is max(a(r, j) + b(0, j), 0). -/
abbrev clamped (A : S200000x16.Idx → Elt Ideal .f32) (b : S1x16.Idx → Elt Ideal .f32) : S200000x16.Idx → Elt Ideal .f32 :=
  fun i => FloatOps.maximumf (F := Ideal) (φ := .f32) (FloatOps.addf (F := Ideal) (φ := .f32) (A i) (b (colPos i))) (Ideal.ofBits .f32 0x00000000#32)

/-- An entry of a tile's result is the feature entry plus its column's bias, clamped at zero. -/
theorem tile_apply (v0 : Vec Ideal S1x16 .f32) (v4 : Vec Ideal S5000x16 .f32) (y : S5000x16.Idx) :
    k2_pay1 (F := Ideal) v0 v4 y = FloatOps.maximumf (F := Ideal) (φ := .f32) (FloatOps.addf (F := Ideal) (φ := .f32) (v4 y) (v0 (colPosB y))) (Ideal.ofBits .f32 0x00000000#32) := by
  unfold k2_pay1
  show FloatOps.maximumf (F := Ideal) (φ := .f32) (FloatOps.addf (F := Ideal) (φ := .f32) (shapeCast S5000x16 v4 shapeCasts_S5000x16_S5000x16 y)
      (broadcastTo S5000x16 (shapeCast S1x16 (shapeCast S1x16 v0 shapeCasts_S1x16_S1x16) shapeCasts_S1x16_S1x16) broadcasts_S1x16_S5000x16 y))
      (Ideal.ofBits .f32 0x00000000#32) = _
  rw [shapeCast_self, shapeCast_self, shapeCast_self]
  refine congrArg (fun z => FloatOps.maximumf (F := Ideal) (φ := .f32) (FloatOps.addf (F := Ideal) (φ := .f32) (v4 y) z) (Ideal.ofBits .f32 0x00000000#32)) ?_
  refine broadcastTo_apply v0 broadcasts_S1x16_S5000x16 y (colPosB y) fun a => ?_
  match a with
  | ⟨0, _⟩ => rfl
  | ⟨1, _⟩ => rfl

variable (V : (c : Dev nD) → (b : Ref sig .tc) → Buf (Elt Ideal) ((c : Thread nD τ).loc b))

/-- Where each window's block sits at grid point t: the features and the result at row block t, the bias whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the clamped features. -/
theorem flushed_eq (c : Dev nD) (t : Fin cfg2.N) :
    (dat2 V c).flushed 2 t = ((cfg2.win 2).blk t).view.read (Elt Ideal) (clamped (V c main_v42) (V c main_v43)) := by
  show (cfg2.win 2).cut (grid2.coords t) ((dat2 V c).after 2 t) = _
  rw [after2_2]
  unfold out2_2
  rw [View.canon_unit_zero hz]
  simp only [View.ld_unit_zero (S := S1x16) hz, View.ld_unit_zero (S := S5000x16) hz]
  obtain ⟨e0, e1, e2, e3, e4, e5⟩ := idx_facts t
  funext y
  show k2_pay1 (F := Ideal) (iblk2 V c 1 t) (iblk2 V c 0 t) y
    = FloatOps.maximumf (F := Ideal) (φ := .f32) (FloatOps.addf (F := Ideal) (φ := .f32) (V c main_v42 (((cfg2.win 2).blk t).view.emb y)) (V c main_v43 (colPos (((cfg2.win 2).blk t).view.emb y)))) (Ideal.ofBits .f32 0x00000000#32)
  refine (tile_apply (iblk2 V c 1 t) (iblk2 V c 0 t) y).trans ?_
  have h0 : ((cfg2.win 0).blk t).view.emb y = ((cfg2.win 2).blk t).view.emb y := by
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 16 + 1 * (y 1).val = win2_2.index t (1 : Fin 2) * 16 + 1 * (y 1).val; omega
  have h1 : ((cfg2.win 1).blk t).view.emb (colPosB y) = colPos (((cfg2.win 2).blk t).view.emb y) := by
    funext a; apply Fin.ext
    match a with
    | ⟨0, _⟩ => show win2_1.index t (0 : Fin 2) * 1 + 1 * 0 = 0; omega
    | ⟨1, _⟩ => show win2_1.index t (1 : Fin 2) * 16 + 1 * (y 1).val = win2_2.index t (1 : Fin 2) * 16 + 1 * (y 1).val; omega
  show FloatOps.maximumf (F := Ideal) (φ := .f32) (FloatOps.addf (F := Ideal) (φ := .f32) (V c main_v42 (((cfg2.win 0).blk t).view.emb y)) (V c main_v43 (((cfg2.win 1).blk t).view.emb (colPosB y)))) (Ideal.ofBits .f32 0x00000000#32) = _
  rw [h0, h1]

/-- An index of the result array lies in point t's tile iff each coordinate is in the tile's range. -/
theorem mem_blk (t : Fin cfg2.N) (i : S200000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v44).slice (win2_2.rect t)).set ↔ _
  rw [View.set_slice_whole, Rect.mem_set_unit]
  exact Iff.rfl

/-- Row r of the result array lies in the tile of point r / 5000. -/
theorem cover (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  have hN : grid2.N = 40 := N_2
  have ht : (i 0).val / 5000 < grid2.N := by omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 16 ≤ (i 1).val ∧ (i 1).val < win2_2.index ⟨(i 0).val / 5000, ht⟩ (1 : Fin 2) * 16 + 16
    rw [e5]; omega

/-- The array the region leaves is the features, as the region found them, with the bias added and clamped at zero. -/
theorem final (c : Dev nD) : (dat2 V c).arrAt 2 cfg2.N = clamped (V c main_v42) (V c main_v43) :=
  (dat2 V c).arrAt_eq_of_cover 2 _ (fun t _ => flushed_eq V c t) cover

end Cert.KernelIdeal.Tiles2

end
-- ==== Proof.Tiles3.lean ====
/-
  The second node transform, tile by tile.  The hidden features form a 200000 x 16 array and the weight a 16 x 16
  array; the grid has 40 points, and point t multiplies rows 5000 t .. 5000 t + 4999 of the features by the whole
  weight.  An entry (r, j) of a tile's product is the sum over the 16 contracted positions k of h(r, k) * w(k, j),
  which is entry (5000 t + r, j) of the product of the whole arrays; the 40 tiles cover all 200000 rows.
-/
import proofs.«124231_j50199577755932_2_alg».proof.Proof.Gen.KernelIdeal.Frame
import proofs.«124231_j50199577755932_2_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Tiles3

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- Row r, contracted position k of a left tile. -/
abbrev lpos (y : S5000x16.Idx) (k : Fin 16) : S5000x16.Idx := fun a => match a with
  | ⟨0, _⟩ => ⟨(y 0).val, (y 0).isLt⟩
  | ⟨1, _⟩ => ⟨k.val, k.isLt⟩
/-- Contracted position k, column j of the weight. -/
abbrev rpos (y : S5000x16.Idx) (k : Fin 16) : S16x16.Idx := fun a => match a with
  | ⟨0, _⟩ => ⟨k.val, k.isLt⟩
  | ⟨1, _⟩ => ⟨(y 1).val, (y 1).isLt⟩

theorem lhs_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem lhs_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
theorem rhs_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
theorem rhs_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- An entry of a tile's result: the sum over the contracted position of left entry times weight entry. -/
theorem tile_apply (v0 : Vec Ideal S5000x16 .f32) (v2 : Vec Ideal S16x16 .f32) (y : S5000x16.Idx) :
    k3_pay1 (F := Ideal) v0 v2 y = ∑ k : Fin 16, v0 (lpos y k) * v2 (rpos y k) := by
  unfold k3_pay1
  show FloatOps.matmul (F := Ideal) dot_S5000x16_S16x16_S5000x16_1_0_0_1_n_n none (shapeCast S5000x16 v0 shapeCasts_S5000x16_S5000x16) v2 (constant S5000x16 .f32 0x00000000#32) y = _
  rw [shapeCast_self]
  refine (Ideal.matmul_constant_zero_apply dot_S5000x16_S16x16_S5000x16_1_0_0_1_n_n none v0 v2 y).trans ?_
  rw [← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx y ((ValueIdx.contrEquiv1 dot_S5000x16_S16x16_S5000x16_1_0_0_1_n_n 16 rfl rfl).symm k) = lpos y k := funext fun a => Fin.ext (by
    match a with
    | ⟨0, _⟩ => exact lhs_0 _ _
    | ⟨1, _⟩ => exact (lhs_1 _ _).trans hk)
  have er : dot_S5000x16_S16x16_S5000x16_1_0_0_1_n_n.rhsIdx y ((ValueIdx.contrEquiv1 dot_S5000x16_S16x16_S5000x16_1_0_0_1_n_n 16 rfl rfl).symm k) = rpos y k := funext fun a => Fin.ext (by
    match a with
    | ⟨0, _⟩ => exact (rhs_0 _ _).trans hk
    | ⟨1, _⟩ => exact rhs_1 _ _)
  rw [el, er]

/-- The product of the whole arrays. -/
abbrev whole (H : S200000x16.Idx → Elt Ideal .f32) (W : S16x16.Idx → Elt Ideal .f32) : S200000x16.Idx → Elt Ideal .f32 :=
  Host.dotGeneral (F := Ideal) (φ₁ := .f32) (φ₂ := .f32) Cert.ReferenceIdeal.dot_S200000x16_S16x16_S200000x16_1_0_0_1_n_n none H W

/-- An entry of the whole product is the same sum over the whole arrays. -/
theorem prod_apply (H : S200000x16.Idx → Elt Ideal .f32) (W : S16x16.Idx → Elt Ideal .f32) (i : S200000x16.Idx) :
    Host.dotGeneral (F := Ideal) (φ₁ := .f32) (φ₂ := .f32) Cert.ReferenceIdeal.dot_S200000x16_S16x16_S200000x16_1_0_0_1_n_n none H W i
      = ∑ k : Fin 16, H (Cert.ReferenceIdeal.ReadP.lidx_main_v48 i k) * W (Cert.ReferenceIdeal.ReadP.ridx_main_v48 i k) := by
  simp only [Host.dotGeneral]
  rw [Ideal.dotGeneral_apply]
  rw [← Equiv.sum_comp (ValueIdx.contrEquiv1 Cert.ReferenceIdeal.dot_S200000x16_S16x16_S200000x16_1_0_0_1_n_n 16 rfl rfl).symm]
  refine Finset.sum_congr rfl fun k _ => ?_
  have hk := ValueIdx.contrEquiv1_symm_val Cert.ReferenceIdeal.dot_S200000x16_S16x16_S200000x16_1_0_0_1_n_n 16 rfl rfl k
  have el : Cert.ReferenceIdeal.dot_S200000x16_S16x16_S200000x16_1_0_0_1_n_n.lhsIdx i ((ValueIdx.contrEquiv1 Cert.ReferenceIdeal.dot_S200000x16_S16x16_S200000x16_1_0_0_1_n_n 16 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S200000x16_S16x16_S200000x16_1_0_0_1_n_n.rhsIdx i ((ValueIdx.contrEquiv1 Cert.ReferenceIdeal.dot_S200000x16_S16x16_S200000x16_1_0_0_1_n_n 16 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

variable (V : (c : Dev nD) → (b : Ref sig .tc) → Buf (Elt Ideal) ((c : Thread nD τ).loc b))

/-- Where each window's block sits at grid point t: the left tile and the result tile at row block t, the rest whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the whole result. -/
theorem flushed_eq (c : Dev nD) (t : Fin cfg3.N) :
    (dat3 V c).flushed 2 t = ((cfg3.win 2).blk t).view.read (Elt Ideal) (whole (V c main_v44) (V c main_arg4)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x16) hz]
  obtain ⟨e0, e1, e2, e3, e4, e5⟩ := idx_facts t
  funext y
  show k3_pay1 (F := Ideal) (iblk3 V c 0 t) (iblk3 V c 1 t) y = whole (V c main_v44) (V c main_arg4) (((cfg3.win 2).blk t).view.emb y)
  refine (tile_apply (iblk3 V c 0 t) (iblk3 V c 1 t) y).trans ?_
  refine Eq.trans ?_ (prod_apply (V c main_v44) (V c main_arg4) (((cfg3.win 2).blk t).view.emb y)).symm
  refine Finset.sum_congr rfl fun k _ => ?_
  have hl : ((cfg3.win 0).blk t).view.emb (lpos y k) = Cert.ReferenceIdeal.ReadP.lidx_main_v48 (((cfg3.win 2).blk t).view.emb y) k := by
    funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 16 + 1 * k.val = k.val; omega
  have hr : ((cfg3.win 1).blk t).view.emb (rpos y k) = Cert.ReferenceIdeal.ReadP.ridx_main_v48 (((cfg3.win 2).blk t).view.emb y) k := by
    funext a; apply Fin.ext
    match a with
    | ⟨0, _⟩ => show win3_1.index t (0 : Fin 2) * 16 + 1 * k.val = k.val; omega
    | ⟨1, _⟩ => show win3_1.index t (1 : Fin 2) * 16 + 1 * (y 1).val = win3_2.index t (1 : Fin 2) * 16 + 1 * (y 1).val; omega
  rw [← hl, ← hr]
  rfl

/-- An index of the result array lies in point t's tile iff each coordinate is in the tile's range. -/
theorem mem_blk (t : Fin cfg3.N) (i : S200000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v45).slice (win3_2.rect t)).set ↔ _
  rw [View.set_slice_whole, Rect.mem_set_unit]
  exact Iff.rfl

/-- Row r of the result array lies in the tile of point r / 5000. -/
theorem cover (i : S200000x16.Idx) : ∃ t : Fin cfg3.N, (cfg3.win 2).flush t = true ∧ i ∈ ((cfg3.win 2).blk t).view.set := by
  have hi0 : (i 0).val < 200000 := (i 0).isLt
  have hi1 : (i 1).val < 16 := (i 1).isLt
  have hN : grid3.N = 40 := N_3
  have ht : (i 0).val / 5000 < grid3.N := by omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 16 ≤ (i 1).val ∧ (i 1).val < win3_2.index ⟨(i 0).val / 5000, ht⟩ (1 : Fin 2) * 16 + 16
    rw [e5]; omega

/-- The array the region leaves is the whole result of the arrays as the region found them. -/
theorem final (c : Dev nD) : (dat3 V c).arrAt 2 cfg3.N = whole (V c main_v44) (V c main_arg4) :=
  (dat3 V c).arrAt_eq_of_cover 2 _ (fun t _ => flushed_eq V c t) cover

end Cert.KernelIdeal.Tiles3

end
-- ==== Proof.ChainC.lean ====
/-
  The first graph convolution from the scaled messages to the hidden features, and the second node transform.  The host
  sums the scaled messages of every node's incoming edges and reshapes the first bias into a row; the third region
  adds the bias and clamps at zero; the fourth multiplies the result by the second weight.  At each step the buffer
  holds the value the reference's corresponding operations give.
-/
import proofs.«124231_j50199577755932_2_alg».proof.Proof.Gen.KernelIdeal.Frame
import proofs.«124231_j50199577755932_2_alg».proof.Proof.RefRead
import proofs.«124231_j50199577755932_2_alg».proof.Proof.ChainB
import proofs.«124231_j50199577755932_2_alg».proof.Proof.Tiles2
import proofs.«124231_j50199577755932_2_alg».proof.Proof.Tiles3
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Reads a buffer through the operations that ran before it: each operation's result at its own buffer is its
    function of its operands, and at any other buffer what was there. -/
local macro "read_results" : tactic =>
  `(tactic| ((try after_results_simp)
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- Nothing between boundary 3 and boundary 6 writes this buffer. -/
theorem keep_v6_3_6 : W6 m ρ c (Proc.devRef .tc main_v6) = W3 m ρ c (Proc.devRef .tc main_v6) :=
  (W6_of_ne m ρ c main_v6 (by decide)).trans
    ((by show StableHlo.after hostOps1 (W4 m ρ c) (Proc.devRef .tc main_v6) = _; after_results_simp <;> rfl : W5 m ρ c (Proc.devRef .tc main_v6) = W4 m ρ c (Proc.devRef .tc main_v6)).trans
    ((W4_of_ne m ρ c main_v6 (by decide))))

/-- Nothing between boundary 0 and boundary 6 writes this buffer. -/
theorem keep_arg3_0_6 : W6 m ρ c (Proc.devRef .tc main_arg3) = W0 m ρ c (Proc.devRef .tc main_arg3) :=
  (W6_of_ne m ρ c main_arg3 (by decide)).trans
    ((by show StableHlo.after hostOps1 (W4 m ρ c) (Proc.devRef .tc main_arg3) = _; after_results_simp <;> rfl : W5 m ρ c (Proc.devRef .tc main_arg3) = W4 m ρ c (Proc.devRef .tc main_arg3)).trans
    ((W4_of_ne m ρ c main_arg3 (by decide)).trans
    ((by show StableHlo.after hostOps0_2 (W2 m ρ c) (Proc.devRef .tc main_arg3) = _; after_results_simp <;> rfl : W3 m ρ c (Proc.devRef .tc main_arg3) = W2 m ρ c (Proc.devRef .tc main_arg3)).trans
    ((by show StableHlo.after hostOps0_1 (W1 m ρ c) (Proc.devRef .tc main_arg3) = _; after_results_simp <;> rfl : W2 m ρ c (Proc.devRef .tc main_arg3) = W1 m ρ c (Proc.devRef .tc main_arg3)).trans
    ((by show StableHlo.after hostOps0 (W0 m ρ c) (Proc.devRef .tc main_arg3) = _; after_results_simp <;> rfl : W1 m ρ c (Proc.devRef .tc main_arg3) = W0 m ρ c (Proc.devRef .tc main_arg3)))))))
theorem at6_arg3 : W6 m ρ c (Proc.devRef .tc main_arg3) = (m ((c : Thread nD τ).loc main_arg3)) := keep_arg3_0_6 m ρ c

/-- The aggregated messages: for every node the sum of the scaled messages of its incoming edges. -/
theorem at7_v42 : W7 m ρ c (Proc.devRef .tc main_v42) = Cert.ReferenceIdeal.ReadP.val_main_v43 (F := Ideal) (m ((c : Thread nD τ).loc main_arg0)) (m ((c : Thread nD τ).loc main_arg1)) (m ((c : Thread nD τ).loc main_arg2)) := by
  show StableHlo.after hostOps2 (W6 m ρ c) (Proc.devRef .tc main_v42) = _
  read_results
  rw [at6_v39, keep_v6_3_6, at3_v6]
  unfold Cert.ReferenceIdeal.ReadP.val_main_v43 Cert.ReferenceIdeal.ReadP.val_main_v41 Cert.ReferenceIdeal.ReadP.val_main_v42 Cert.ReferenceIdeal.ReadP.val_main_cst_8
  rfl

/-- The first bias as a row. -/
theorem at7_v43 : W7 m ρ c (Proc.devRef .tc main_v43) = (fun i => shapeCast S1x16 (m ((c : Thread nD τ).loc main_arg3)) shapeCasts_S16_S1x16 i) := by
  show StableHlo.after hostOps2 (W6 m ρ c) (Proc.devRef .tc main_v43) = _
  read_results
  rw [at6_arg3]
  rfl

/-- The hidden features after the first convolution: aggregated messages plus bias, clamped at zero. -/
theorem at8_v44 : W8 m ρ c (Proc.devRef .tc main_v44) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ?_
  refine (Tiles2.final (V7 m ρ) c).trans ?_
  show Tiles2.clamped (W7 m ρ c (Proc.devRef .tc main_v42)) (W7 m ρ c (Proc.devRef .tc main_v43)) = _
  rw [at7_v42, at7_v43]
  funext i
  show FloatOps.maximumf (F := Ideal) (φ := .f32) (FloatOps.addf (F := Ideal) (φ := .f32) (Cert.ReferenceIdeal.ReadP.val_main_v43 (F := Ideal) (m ((c : Thread nD τ).loc main_arg0)) (m ((c : Thread nD τ).loc main_arg1)) (m ((c : Thread nD τ).loc main_arg2)) i)
      (shapeCast S1x16 (m ((c : Thread nD τ).loc main_arg3)) shapeCasts_S16_S1x16 (Tiles2.colPos i))) (Ideal.ofBits .f32 0x00000000#32) = _
  refine Eq.trans ?_ (Cert.ReferenceIdeal.ReadP.val_main_v47_apply (m ((c : Thread nD τ).loc main_arg0)) (m ((c : Thread nD τ).loc main_arg1)) (m ((c : Thread nD τ).loc main_arg2)) (m ((c : Thread nD τ).loc main_arg3)) i).symm
  rw [Cert.ReferenceIdeal.ReadP.val_main_v46_apply, Cert.ReferenceIdeal.ReadP.val_main_v45_apply, Cert.ReferenceIdeal.ReadP.val_main_v44_apply, Cert.ReferenceIdeal.ReadP.val_main_call1_v0_apply, Cert.ReferenceIdeal.ReadP.val_main_call1_cst_apply]
  have hb : shapeCast S1x16 (m ((c : Thread nD τ).loc main_arg3)) shapeCasts_S16_S1x16 (Tiles2.colPos i) = (m ((c : Thread nD τ).loc main_arg3)) (Cert.ReferenceIdeal.ReadP.idx_main_v44 (Cert.ReferenceIdeal.ReadP.idx_main_v45 i)) :=
    shapeCast_apply _ _ _ _ (by
      show (S16.rowMajor _).val = (S1x16.rowMajor _).val
      rw [Shape.rowMajor_val_one, Shape.rowMajor_val_two]
      show (i 1).val = 0 * 16 + (i 1).val
      omega)
  rw [hb]
  rfl

/-- Nothing between boundary 0 and boundary 8 writes this buffer. -/
theorem keep_arg4_0_8 : W8 m ρ c (Proc.devRef .tc main_arg4) = W0 m ρ c (Proc.devRef .tc main_arg4) :=
  (W8_of_ne m ρ c main_arg4 (by decide)).trans
    ((by show StableHlo.after hostOps2 (W6 m ρ c) (Proc.devRef .tc main_arg4) = _; after_results_simp <;> rfl : W7 m ρ c (Proc.devRef .tc main_arg4) = W6 m ρ c (Proc.devRef .tc main_arg4)).trans
    ((W6_of_ne m ρ c main_arg4 (by decide)).trans
    ((by show StableHlo.after hostOps1 (W4 m ρ c) (Proc.devRef .tc main_arg4) = _; after_results_simp <;> rfl : W5 m ρ c (Proc.devRef .tc main_arg4) = W4 m ρ c (Proc.devRef .tc main_arg4)).trans
    ((W4_of_ne m ρ c main_arg4 (by decide)).trans
    ((by show StableHlo.after hostOps0_2 (W2 m ρ c) (Proc.devRef .tc main_arg4) = _; after_results_simp <;> rfl : W3 m ρ c (Proc.devRef .tc main_arg4) = W2 m ρ c (Proc.devRef .tc main_arg4)).trans
    ((by show StableHlo.after hostOps0_1 (W1 m ρ c) (Proc.devRef .tc main_arg4) = _; after_results_simp <;> rfl : W2 m ρ c (Proc.devRef .tc main_arg4) = W1 m ρ c (Proc.devRef .tc main_arg4)).trans
    ((by show StableHlo.after hostOps0 (W0 m ρ c) (Proc.devRef .tc main_arg4) = _; after_results_simp <;> rfl : W1 m ρ c (Proc.devRef .tc main_arg4) = W0 m ρ c (Proc.devRef .tc main_arg4)))))))))
theorem at8_arg4 : W8 m ρ c (Proc.devRef .tc main_arg4) = (m ((c : Thread nD τ).loc main_arg4)) := keep_arg4_0_8 m ρ c

/-- The hidden features times the second weight. -/
theorem at9_v45 : W9 m ρ c (Proc.devRef .tc main_v45) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ?_
  refine (Tiles3.final (V8 m ρ) c).trans ?_
  show Tiles3.whole (W8 m ρ c (Proc.devRef .tc main_v44)) (W8 m ρ c (Proc.devRef .tc main_arg4)) = _
  rw [at8_v44, at8_arg4]
  rfl

end Cert.KernelIdeal.Chain

end
-- ==== Proof.Tiles4.lean ====
/-
  Scaling the gathered messages, tile by tile.  The messages form a 13000000 x 16 array and the edge weights a
  13000000 x 1 column; the grid has 1300 points, and point t multiplies each of rows 10000 t .. 10000 t + 9999 of the
  messages by that row's weight.  Entry (r, j) of a tile is message (r, j) times weight (r, 0), the same rule on
  every tile, and the 1300 tiles cover all rows: the array the region leaves is the messages scaled row by row.
-/
import proofs.«124231_j50199577755932_2_alg».proof.Proof.Gen.KernelIdeal.Frame
import Idealize.ShloMosaic.Lib.Pipeline.Value
import Idealize.ShloMosaic.Lib.ValueIdx

set_option maxRecDepth 16384

noncomputable section

namespace Cert.KernelIdeal.Tiles4

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The weight position of a message row, in the whole arrays. -/
abbrev rowPos (i : S13000000x16.Idx) : S13000000x1.Idx := fun a => match a with
  | ⟨0, _⟩ => ⟨(i 0).val, (i 0).isLt⟩
  | ⟨1, _⟩ => ⟨0, Nat.one_pos⟩
/-- The same inside a tile. -/
abbrev rowPosB (y : S10000x16.Idx) : S10000x1.Idx := fun a => match a with
  | ⟨0, _⟩ => ⟨(y 0).val, (y 0).isLt⟩
  | ⟨1, _⟩ => ⟨0, Nat.one_pos⟩

/-- The messages scaled row by row: entry (r, j) is message (r, j) times weight (r, 0). -/
abbrev scaled (M : S13000000x16.Idx → Elt Ideal .f32) (n : S13000000x1.Idx → Elt Ideal .f32) : S13000000x16.Idx → Elt Ideal .f32 :=
  fun i => FloatOps.mulf (F := Ideal) (φ := .f32) (M i) (n (rowPos i))

/-- An entry of a tile's result is the message entry times its row's weight. -/
theorem tile_apply (v0 : Vec Ideal S10000x1 .f32) (v4 : Vec Ideal S10000x16 .f32) (y : S10000x16.Idx) :
    k4_pay1 (F := Ideal) v0 v4 y = FloatOps.mulf (F := Ideal) (φ := .f32) (v4 y) (v0 (rowPosB y)) := by
  unfold k4_pay1
  show FloatOps.mulf (F := Ideal) (φ := .f32) (shapeCast S10000x16 v4 shapeCasts_S10000x16_S10000x16 y)
      (broadcastTo S10000x16 (shapeCast S10000x1 (shapeCast S10000x1 v0 shapeCasts_S10000x1_S10000x1) shapeCasts_S10000x1_S10000x1) broadcasts_S10000x1_S10000x16 y) = _
  rw [shapeCast_self, shapeCast_self, shapeCast_self]
  refine congrArg (FloatOps.mulf (F := Ideal) (φ := .f32) (v4 y)) ?_
  refine broadcastTo_apply v0 broadcasts_S10000x1_S10000x16 y (rowPosB y) fun a => ?_
  match a with
  | ⟨0, _⟩ => rfl
  | ⟨1, _⟩ => rfl

variable (V : (c : Dev nD) → (b : Ref sig .tc) → Buf (Elt Ideal) ((c : Thread nD τ).loc b))

/-- Where each window's block sits at grid point t: all three at row block t. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is tile t of the scaled messages. -/
theorem flushed_eq (c : Dev nD) (t : Fin cfg4.N) :
    (dat4 V c).flushed 2 t = ((cfg4.win 2).blk t).view.read (Elt Ideal) (scaled (V c main_v52) (V c main_v53)) := by
  show (cfg4.win 2).cut (grid4.coords t) ((dat4 V c).after 2 t) = _
  rw [after4_2]
  unfold out4_2
  rw [View.canon_unit_zero hz]
  simp only [View.ld_unit_zero (S := S10000x1) hz, View.ld_unit_zero (S := S10000x16) hz]
  obtain ⟨e0, e1, e2, e3, e4, e5⟩ := idx_facts t
  funext y
  show k4_pay1 (F := Ideal) (iblk4 V c 1 t) (iblk4 V c 0 t) y
    = FloatOps.mulf (F := Ideal) (φ := .f32) (V c main_v52 (((cfg4.win 2).blk t).view.emb y)) (V c main_v53 (rowPos (((cfg4.win 2).blk t).view.emb y)))
  refine (tile_apply (iblk4 V c 1 t) (iblk4 V c 0 t) y).trans ?_
  have h0 : ((cfg4.win 0).blk t).view.emb y = ((cfg4.win 2).blk t).view.emb y := by
    funext a; apply Fin.ext
    match a with
    | ⟨0, _⟩ => show win4_0.index t (0 : Fin 2) * 10000 + 1 * (y 0).val = win4_2.index t (0 : Fin 2) * 10000 + 1 * (y 0).val; omega
    | ⟨1, _⟩ => show win4_0.index t (1 : Fin 2) * 16 + 1 * (y 1).val = win4_2.index t (1 : Fin 2) * 16 + 1 * (y 1).val; omega
  have h1 : ((cfg4.win 1).blk t).view.emb (rowPosB y) = rowPos (((cfg4.win 2).blk t).view.emb y) := by
    funext a; apply Fin.ext
    match a with
    | ⟨0, _⟩ => show win4_1.index t (0 : Fin 2) * 10000 + 1 * (y 0).val = win4_2.index t (0 : Fin 2) * 10000 + 1 * (y 0).val; omega
    | ⟨1, _⟩ => show win4_1.index t (1 : Fin 2) * 1 + 1 * 0 = 0; omega
  show FloatOps.mulf (F := Ideal) (φ := .f32) (V c main_v52 (((cfg4.win 0).blk t).view.emb y)) (V c main_v53 (((cfg4.win 1).blk t).view.emb (rowPosB y))) = _
  rw [h0, h1]

/-- An index of the result array lies in point t's tile iff each coordinate is in the tile's range. -/
theorem mem_blk (t : Fin cfg4.N) (i : S13000000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v54).slice (win4_2.rect t)).set ↔ _
  rw [View.set_slice_whole, Rect.mem_set_unit]
  exact Iff.rfl

/-- Row r of the result array lies in the tile of point r / 10000. -/
theorem cover (i : S13000000x16.Idx) : ∃ t : Fin cfg4.N, (cfg4.win 2).flush t = true ∧ i ∈ ((cfg4.win 2).blk t).view.set := by
  have hi0 : (i 0).val < 13000000 := (i 0).isLt
  have hi1 : (i 1).val < 16 := (i 1).isLt
  have hN : grid4.N = 1300 := N_4
  have ht : (i 0).val / 10000 < grid4.N := by omega
  obtain ⟨e0, e1, e2, e3, e4, e5⟩ := idx_facts ⟨(i 0).val / 10000, ht⟩
  refine ⟨⟨(i 0).val / 10000, ht⟩, flush4_2 _, ?_⟩
  rw [mem_blk]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 16 ≤ (i 1).val ∧ (i 1).val < win4_2.index ⟨(i 0).val / 10000, ht⟩ (1 : Fin 2) * 16 + 16
    rw [e5]; omega

/-- The array the region leaves is the messages, as the region found them, scaled row by row. -/
theorem final (c : Dev nD) : (dat4 V c).arrAt 2 cfg4.N = scaled (V c main_v52) (V c main_v53) :=
  (dat4 V c).arrAt_eq_of_cover 2 _ (fun t _ => flushed_eq V c t) cover

end Cert.KernelIdeal.Tiles4

end
-- ==== Proof.Tiles5.lean ====
/-
  Adding the bias and clamping at zero, tile by tile.  The aggregated features form a 200000 x 16 array and the bias
  a 1 x 16 row; the grid has 40 points, and point t adds the bias row to each of rows 5000 t .. 5000 t + 4999 and
  takes the maximum with zero.  Entry (r, j) of a tile is max(a(r, j) + b(0, j), 0), the same rule on every tile,
  and the 40 tiles cover all rows.
-/
import proofs.«124231_j50199577755932_2_alg».proof.Proof.Gen.KernelIdeal.Frame
import Idealize.ShloMosaic.Lib.Pipeline.Value
import Idealize.ShloMosaic.Lib.ValueIdx

set_option maxRecDepth 16384

noncomputable section

namespace Cert.KernelIdeal.Tiles5

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The bias position of a feature column, in the whole arrays. -/
abbrev colPos (i : S200000x16.Idx) : S1x16.Idx := fun a => match a with
  | ⟨0, _⟩ => ⟨0, Nat.one_pos⟩
  | ⟨1, _⟩ => ⟨(i 1).val, (i 1).isLt⟩
/-- The same inside a tile. -/
abbrev colPosB (y : S5000x16.Idx) : S1x16.Idx := fun a => match a with
  | ⟨0, _⟩ => ⟨0, Nat.one_pos⟩
  | ⟨1, _⟩ => ⟨(y 1).val, (y 1).isLt⟩

/-- The features with the bias row added and clamped at zero: entry (r, j) is max(a(r, j) + b(0, j), 0). -/
abbrev clamped (A : S200000x16.Idx → Elt Ideal .f32) (b : S1x16.Idx → Elt Ideal .f32) : S200000x16.Idx → Elt Ideal .f32 :=
  fun i => FloatOps.maximumf (F := Ideal) (φ := .f32) (FloatOps.addf (F := Ideal) (φ := .f32) (A i) (b (colPos i))) (Ideal.ofBits .f32 0x00000000#32)

/-- An entry of a tile's result is the feature entry plus its column's bias, clamped at zero. -/
theorem tile_apply (v0 : Vec Ideal S1x16 .f32) (v4 : Vec Ideal S5000x16 .f32) (y : S5000x16.Idx) :
    k5_pay1 (F := Ideal) v0 v4 y = FloatOps.maximumf (F := Ideal) (φ := .f32) (FloatOps.addf (F := Ideal) (φ := .f32) (v4 y) (v0 (colPosB y))) (Ideal.ofBits .f32 0x00000000#32) := by
  unfold k5_pay1
  show FloatOps.maximumf (F := Ideal) (φ := .f32) (FloatOps.addf (F := Ideal) (φ := .f32) (shapeCast S5000x16 v4 shapeCasts_S5000x16_S5000x16 y)
      (broadcastTo S5000x16 (shapeCast S1x16 (shapeCast S1x16 v0 shapeCasts_S1x16_S1x16) shapeCasts_S1x16_S1x16) broadcasts_S1x16_S5000x16 y))
      (Ideal.ofBits .f32 0x00000000#32) = _
  rw [shapeCast_self, shapeCast_self, shapeCast_self]
  refine congrArg (fun z => FloatOps.maximumf (F := Ideal) (φ := .f32) (FloatOps.addf (F := Ideal) (φ := .f32) (v4 y) z) (Ideal.ofBits .f32 0x00000000#32)) ?_
  refine broadcastTo_apply v0 broadcasts_S1x16_S5000x16 y (colPosB y) fun a => ?_
  match a with
  | ⟨0, _⟩ => rfl
  | ⟨1, _⟩ => rfl

variable (V : (c : Dev nD) → (b : Ref sig .tc) → Buf (Elt Ideal) ((c : Thread nD τ).loc b))

/-- Where each window's block sits at grid point t: the features and the result at row block t, the bias whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is tile t of the clamped features. -/
theorem flushed_eq (c : Dev nD) (t : Fin cfg5.N) :
    (dat5 V c).flushed 2 t = ((cfg5.win 2).blk t).view.read (Elt Ideal) (clamped (V c main_v57) (V c main_v58)) := by
  show (cfg5.win 2).cut (grid5.coords t) ((dat5 V c).after 2 t) = _
  rw [after5_2]
  unfold out5_2
  rw [View.canon_unit_zero hz]
  simp only [View.ld_unit_zero (S := S1x16) hz, View.ld_unit_zero (S := S5000x16) hz]
  obtain ⟨e0, e1, e2, e3, e4, e5⟩ := idx_facts t
  funext y
  show k5_pay1 (F := Ideal) (iblk5 V c 1 t) (iblk5 V c 0 t) y
    = FloatOps.maximumf (F := Ideal) (φ := .f32) (FloatOps.addf (F := Ideal) (φ := .f32) (V c main_v57 (((cfg5.win 2).blk t).view.emb y)) (V c main_v58 (colPos (((cfg5.win 2).blk t).view.emb y)))) (Ideal.ofBits .f32 0x00000000#32)
  refine (tile_apply (iblk5 V c 1 t) (iblk5 V c 0 t) y).trans ?_
  have h0 : ((cfg5.win 0).blk t).view.emb y = ((cfg5.win 2).blk t).view.emb y := by
    funext a; apply Fin.ext
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 16 + 1 * (y 1).val = win5_2.index t (1 : Fin 2) * 16 + 1 * (y 1).val; omega
  have h1 : ((cfg5.win 1).blk t).view.emb (colPosB y) = colPos (((cfg5.win 2).blk t).view.emb y) := by
    funext a; apply Fin.ext
    match a with
    | ⟨0, _⟩ => show win5_1.index t (0 : Fin 2) * 1 + 1 * 0 = 0; omega
    | ⟨1, _⟩ => show win5_1.index t (1 : Fin 2) * 16 + 1 * (y 1).val = win5_2.index t (1 : Fin 2) * 16 + 1 * (y 1).val; omega
  show FloatOps.maximumf (F := Ideal) (φ := .f32) (FloatOps.addf (F := Ideal) (φ := .f32) (V c main_v57 (((cfg5.win 0).blk t).view.emb y)) (V c main_v58 (((cfg5.win 1).blk t).view.emb (colPosB y)))) (Ideal.ofBits .f32 0x00000000#32) = _
  rw [h0, h1]

/-- An index of the result array lies in point t's tile iff each coordinate is in the tile's range. -/
theorem mem_blk (t : Fin cfg5.N) (i : S200000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v59).slice (win5_2.rect t)).set ↔ _
  rw [View.set_slice_whole, Rect.mem_set_unit]
  exact Iff.rfl

/-- Row r of the result array lies in the tile of point r / 5000. -/
theorem cover (i : S200000x16.Idx) : ∃ t : Fin cfg5.N, (cfg5.win 2).flush t = true ∧ i ∈ ((cfg5.win 2).blk t).view.set := by
  have hi0 : (i 0).val < 200000 := (i 0).isLt
  have hi1 : (i 1).val < 16 := (i 1).isLt
  have hN : grid5.N = 40 := N_5
  have ht : (i 0).val / 5000 < grid5.N := by omega
  obtain ⟨e0, e1, e2, e3, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 16 ≤ (i 1).val ∧ (i 1).val < win5_2.index ⟨(i 0).val / 5000, ht⟩ (1 : Fin 2) * 16 + 16
    rw [e5]; omega

/-- The array the region leaves is the features, as the region found them, with the bias added and clamped at zero. -/
theorem final (c : Dev nD) : (dat5 V c).arrAt 2 cfg5.N = clamped (V c main_v57) (V c main_v58) :=
  (dat5 V c).arrAt_eq_of_cover 2 _ (fun t _ => flushed_eq V c t) cover

end Cert.KernelIdeal.Tiles5

end
-- ==== Proof.ChainD.lean ====
/-
  The second graph convolution.  The host gathers, for every edge, the transformed hidden features of its source node; the
  fifth region scales each gathered row by its edge's weight; the host sums the scaled messages of every node's
  incoming edges and reshapes the second bias into a row; the sixth region adds the bias and clamps at zero.  At each
  step the buffer holds the value the reference's corresponding operations give.
-/
import proofs.«124231_j50199577755932_2_alg».proof.Proof.Gen.KernelIdeal.Frame
import proofs.«124231_j50199577755932_2_alg».proof.Proof.RefRead
import proofs.«124231_j50199577755932_2_alg».proof.Proof.ChainC
import proofs.«124231_j50199577755932_2_alg».proof.Proof.Tiles4
import proofs.«124231_j50199577755932_2_alg».proof.Proof.Tiles5
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Reads a buffer through the operations that ran before it: each operation's result at its own buffer is its
    function of its operands, and at any other buffer what was there. -/
local macro "read_results" : tactic =>
  `(tactic| ((try after_results_simp)
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- Nothing between boundary 4 and boundary 9 writes this buffer. -/
theorem keep_v3_4_9 : W9 m ρ c (Proc.devRef .tc main_v3) = W4 m ρ c (Proc.devRef .tc main_v3) :=
  (W9_of_ne m ρ c main_v3 (by decide)).trans
    ((W8_of_ne m ρ c main_v3 (by decide)).trans
    ((by show StableHlo.after hostOps2 (W6 m ρ c) (Proc.devRef .tc main_v3) = _; after_results_simp <;> rfl : W7 m ρ c (Proc.devRef .tc main_v3) = W6 m ρ c (Proc.devRef .tc main_v3)).trans
    ((W6_of_ne m ρ c main_v3 (by decide)).trans
    ((by show StableHlo.after hostOps1 (W4 m ρ c) (Proc.devRef .tc main_v3) = _; after_results_simp <;> rfl : W5 m ρ c (Proc.devRef .tc main_v3) = W4 m ρ c (Proc.devRef .tc main_v3))))))

/-- Nothing between boundary 4 and boundary 9 writes this buffer. -/
theorem keep_v29_4_9 : W9 m ρ c (Proc.devRef .tc main_v29) = W4 m ρ c (Proc.devRef .tc main_v29) :=
  (W9_of_ne m ρ c main_v29 (by decide)).trans
    ((W8_of_ne m ρ c main_v29 (by decide)).trans
    ((by show StableHlo.after hostOps2 (W6 m ρ c) (Proc.devRef .tc main_v29) = _; after_results_simp <;> rfl : W7 m ρ c (Proc.devRef .tc main_v29) = W6 m ρ c (Proc.devRef .tc main_v29)).trans
    ((W6_of_ne m ρ c main_v29 (by decide)).trans
    ((by show StableHlo.after hostOps1 (W4 m ρ c) (Proc.devRef .tc main_v29) = _; after_results_simp <;> rfl : W5 m ρ c (Proc.devRef .tc main_v29) = W4 m ρ c (Proc.devRef .tc main_v29))))))

/-- The gathered rows of the second convolution. -/
theorem at10_v52 : W10 m ρ c (Proc.devRef .tc main_v52) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v52) = _
  read_results
  rw [at9_v45, keep_v3_4_9, keep_v3_3_4, at3_v3]
  unfold Cert.ReferenceIdeal.ReadP.val_main_v55 Cert.ReferenceIdeal.ReadP.val_main_v54 Cert.ReferenceIdeal.ReadP.val_main_v53 Cert.ReferenceIdeal.ReadP.val_main_v50 Cert.ReferenceIdeal.ReadP.val_main_v52 Cert.ReferenceIdeal.ReadP.val_main_v49 Cert.ReferenceIdeal.ReadP.val_main_v51 Cert.ReferenceIdeal.ReadP.val_main_c_9 Cert.ReferenceIdeal.ReadP.val_main_c_10
  rfl

/-- The edge weights as a column, again. -/
theorem at10_v53 : W10 m ρ c (Proc.devRef .tc main_v53)
    = (fun i => shapeCast S13000000x1 (Cert.ReferenceIdeal.ReadP.val_main_v29 (F := Ideal) (m ((c : Thread nD τ).loc main_arg1))) shapeCasts_S13000000_S13000000x1 i) := by
  show StableHlo.after hostOps4 (W9 m ρ c) (Proc.devRef .tc main_v53) = _
  read_results
  rw [keep_v29_4_9, keep_v29_3_4, at3_v29]
  rfl

/-- The scaled messages of the second convolution. -/
theorem at11_v54 : W11 m ρ c (Proc.devRef .tc main_v54) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ?_
  refine (Tiles4.final (V10 m ρ) c).trans ?_
  show Tiles4.scaled (W10 m ρ c (Proc.devRef .tc main_v52)) (W10 m ρ c (Proc.devRef .tc main_v53)) = _
  rw [at10_v52, at10_v53]
  funext i
  show FloatOps.mulf (F := Ideal) (φ := .f32) (Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i)
    (shapeCast S13000000x1 (Cert.ReferenceIdeal.ReadP.val_main_v29 (F := Ideal) (m ((c : Thread nD τ).loc main_arg1))) shapeCasts_S13000000_S13000000x1 (Tiles4.rowPos i)) = _
  refine Eq.trans ?_ (Cert.ReferenceIdeal.ReadP.val_main_v58_apply (m ((c : Thread nD τ).loc main_arg0)) (m ((c : Thread nD τ).loc main_arg1)) (m ((c : Thread nD τ).loc main_arg2)) (m ((c : Thread nD τ).loc main_arg3)) (m ((c : Thread nD τ).loc main_arg4)) i).symm
  refine congrArg (FloatOps.mulf (F := Ideal) (φ := .f32) (Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i)) ?_
  rw [Cert.ReferenceIdeal.ReadP.val_main_v57_apply, Cert.ReferenceIdeal.ReadP.val_main_v56_apply]
  refine shapeCast_apply _ _ _ _ ?_
  rw [Shape.rowMajor_val_one, Shape.rowMajor_val_two]
  show (i 0).val = (i 0).val * 1 + 0
  omega

/-- Nothing between boundary 6 and boundary 11 writes this buffer. -/
theorem keep_v6_6_11 : W11 m ρ c (Proc.devRef .tc main_v6) = W6 m ρ c (Proc.devRef .tc main_v6) :=
  (W11_of_ne m ρ c main_v6 (by decide)).trans
    ((by show StableHlo.after hostOps4 (W9 m ρ c) (Proc.devRef .tc main_v6) = _; after_results_simp <;> rfl : W10 m ρ c (Proc.devRef .tc main_v6) = W9 m ρ c (Proc.devRef .tc main_v6)).trans
    ((W9_of_ne m ρ c main_v6 (by decide)).trans
    ((W8_of_ne m ρ c main_v6 (by decide)).trans
    ((by show StableHlo.after hostOps2 (W6 m ρ c) (Proc.devRef .tc main_v6) = _; after_results_simp <;> rfl : W7 m ρ c (Proc.devRef .tc main_v6) = W6 m ρ c (Proc.devRef .tc main_v6))))))

/-- Nothing between boundary 0 and boundary 11 writes this buffer. -/
theorem keep_arg5_0_11 : W11 m ρ c (Proc.devRef .tc main_arg5) = W0 m ρ c (Proc.devRef .tc main_arg5) :=
  (W11_of_ne m ρ c main_arg5 (by decide)).trans
    ((by show StableHlo.after hostOps4 (W9 m ρ c) (Proc.devRef .tc main_arg5) = _; after_results_simp <;> rfl : W10 m ρ c (Proc.devRef .tc main_arg5) = W9 m ρ c (Proc.devRef .tc main_arg5)).trans
    ((W9_of_ne m ρ c main_arg5 (by decide)).trans
    ((W8_of_ne m ρ c main_arg5 (by decide)).trans
    ((by show StableHlo.after hostOps2 (W6 m ρ c) (Proc.devRef .tc main_arg5) = _; after_results_simp <;> rfl : W7 m ρ c (Proc.devRef .tc main_arg5) = W6 m ρ c (Proc.devRef .tc main_arg5)).trans
    ((W6_of_ne m ρ c main_arg5 (by decide)).trans
    ((by show StableHlo.after hostOps1 (W4 m ρ c) (Proc.devRef .tc main_arg5) = _; after_results_simp <;> rfl : W5 m ρ c (Proc.devRef .tc main_arg5) = W4 m ρ c (Proc.devRef .tc main_arg5)).trans
    ((W4_of_ne m ρ c main_arg5 (by decide)).trans
    ((by show StableHlo.after hostOps0_2 (W2 m ρ c) (Proc.devRef .tc main_arg5) = _; after_results_simp <;> rfl : W3 m ρ c (Proc.devRef .tc main_arg5) = W2 m ρ c (Proc.devRef .tc main_arg5)).trans
    ((by show StableHlo.after hostOps0_1 (W1 m ρ c) (Proc.devRef .tc main_arg5) = _; after_results_simp <;> rfl : W2 m ρ c (Proc.devRef .tc main_arg5) = W1 m ρ c (Proc.devRef .tc main_arg5)).trans
    ((by show StableHlo.after hostOps0 (W0 m ρ c) (Proc.devRef .tc main_arg5) = _; after_results_simp <;> rfl : W1 m ρ c (Proc.devRef .tc main_arg5) = W0 m ρ c (Proc.devRef .tc main_arg5))))))))))))
theorem at11_arg5 : W11 m ρ c (Proc.devRef .tc main_arg5) = (m ((c : Thread nD τ).loc main_arg5)) := keep_arg5_0_11 m ρ c

/-- The aggregated messages of the second convolution. -/
theorem at12_v57 : W12 m ρ c (Proc.devRef .tc main_v57) = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v57) = _
  read_results
  rw [at11_v54, keep_v6_6_11, keep_v6_3_6, at3_v6]
  unfold Cert.ReferenceIdeal.ReadP.val_main_v61 Cert.ReferenceIdeal.ReadP.val_main_v59 Cert.ReferenceIdeal.ReadP.val_main_v60 Cert.ReferenceIdeal.ReadP.val_main_cst_11
  rfl

/-- The second bias as a row. -/
theorem at12_v58 : W12 m ρ c (Proc.devRef .tc main_v58) = (fun i => shapeCast S1x16 (m ((c : Thread nD τ).loc main_arg5)) shapeCasts_S16_S1x16 i) := by
  show StableHlo.after hostOps5 (W11 m ρ c) (Proc.devRef .tc main_v58) = _
  read_results
  rw [at11_arg5]
  rfl

/-- The hidden features after the second convolution. -/
theorem at13_v59 : W13 m ρ c (Proc.devRef .tc main_v59) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ?_
  refine (Tiles5.final (V12 m ρ) c).trans ?_
  show Tiles5.clamped (W12 m ρ c (Proc.devRef .tc main_v57)) (W12 m ρ c (Proc.devRef .tc main_v58)) = _
  rw [at12_v57, at12_v58]
  funext i
  show FloatOps.maximumf (F := Ideal) (φ := .f32) (FloatOps.addf (F := Ideal) (φ := .f32) (Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i)
      (shapeCast S1x16 (m ((c : Thread nD τ).loc main_arg5)) shapeCasts_S16_S1x16 (Tiles5.colPos i))) (Ideal.ofBits .f32 0x00000000#32) = _
  refine Eq.trans ?_ (Cert.ReferenceIdeal.ReadP.val_main_v65_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i).symm
  rw [Cert.ReferenceIdeal.ReadP.val_main_v64_apply, Cert.ReferenceIdeal.ReadP.val_main_v63_apply, Cert.ReferenceIdeal.ReadP.val_main_v62_apply, Cert.ReferenceIdeal.ReadP.val_main_call2_v0_apply, Cert.ReferenceIdeal.ReadP.val_main_call2_cst_apply]
  have hb : shapeCast S1x16 (m ((c : Thread nD τ).loc main_arg5)) shapeCasts_S16_S1x16 (Tiles5.colPos i) = (m ((c : Thread nD τ).loc main_arg5)) (Cert.ReferenceIdeal.ReadP.idx_main_v62 (Cert.ReferenceIdeal.ReadP.idx_main_v63 i)) :=
    shapeCast_apply _ _ _ _ (by
      show (S16.rowMajor _).val = (S1x16.rowMajor _).val
      rw [Shape.rowMajor_val_one, Shape.rowMajor_val_two]
      show (i 1).val = 0 * 16 + (i 1).val
      omega)
  rw [hb]
  rfl

end Cert.KernelIdeal.Chain

end
-- ==== Proof.Tiles6.lean ====
/-
  The output layer, tile by tile.  The hidden features form a 200000 x 16 array, the weight a 16 x 4 array and the
  bias a 1 x 4 row; the grid has 40 points, and point t multiplies rows 5000 t .. 5000 t + 4999 of the features by
  the whole weight and adds the bias row.  An entry (r, j) of a tile is the sum over the 16 contracted positions k
  of h(r, k) * w(k, j), plus b(0, j): entry (5000 t + r, j) of the same rule on the whole arrays; the 40 tiles cover
  all 200000 rows.
-/
import proofs.«124231_j50199577755932_2_alg».proof.Proof.Gen.KernelIdeal.Frame
import proofs.«124231_j50199577755932_2_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Tiles6

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- Row r, contracted position k of a left tile. -/
abbrev lpos (y : S5000x4.Idx) (k : Fin 16) : S5000x16.Idx := fun a => match a with
  | ⟨0, _⟩ => ⟨(y 0).val, (y 0).isLt⟩
  | ⟨1, _⟩ => ⟨k.val, k.isLt⟩
/-- Contracted position k, column j of the weight. -/
abbrev rpos (y : S5000x4.Idx) (k : Fin 16) : S16x4.Idx := fun a => match a with
  | ⟨0, _⟩ => ⟨k.val, k.isLt⟩
  | ⟨1, _⟩ => ⟨(y 1).val, (y 1).isLt⟩

/-- The bias position of a result column, in the whole arrays. -/
abbrev colPos (i : S200000x4.Idx) : S1x4.Idx := fun a => match a with
  | ⟨0, _⟩ => ⟨0, Nat.one_pos⟩
  | ⟨1, _⟩ => ⟨(i 1).val, (i 1).isLt⟩
/-- The same inside a tile. -/
abbrev colPosB (y : S5000x4.Idx) : S1x4.Idx := fun a => match a with
  | ⟨0, _⟩ => ⟨0, Nat.one_pos⟩
  | ⟨1, _⟩ => ⟨(y 1).val, (y 1).isLt⟩

theorem lhs_0 (i : S5000x4.Idx) (q : dot_S5000x16_S16x4_S5000x4_1_0_0_1_n_n.contr.Idx) :
    (dot_S5000x16_S16x4_S5000x4_1_0_0_1_n_n.lhsIdx i q 0).val = (i 0).val := by
  unfold DotDims.lhsIdx
  rw [dif_neg (show ¬(0 : Fin S5000x16.rank) ∈ dot_S5000x16_S16x4_S5000x4_1_0_0_1_n_n.lhsBatch by decide), dif_pos (show (0 : Fin S5000x16.rank) ∈ dot_S5000x16_S16x4_S5000x4_1_0_0_1_n_n.lhsNonContracting by decide)]
  rfl
theorem lhs_1 (i : S5000x4.Idx) (q : dot_S5000x16_S16x4_S5000x4_1_0_0_1_n_n.contr.Idx) :
    (dot_S5000x16_S16x4_S5000x4_1_0_0_1_n_n.lhsIdx i q 1).val = (q ⟨0, by decide⟩).val :=
  dot_S5000x16_S16x4_S5000x4_1_0_0_1_n_n.lhsIdx_val_of_single rfl i q
theorem rhs_0 (i : S5000x4.Idx) (q : dot_S5000x16_S16x4_S5000x4_1_0_0_1_n_n.contr.Idx) :
    (dot_S5000x16_S16x4_S5000x4_1_0_0_1_n_n.rhsIdx i q 0).val = (q ⟨0, by decide⟩).val :=
  dot_S5000x16_S16x4_S5000x4_1_0_0_1_n_n.rhsIdx_val_of_single rfl i q
theorem rhs_1 (i : S5000x4.Idx) (q : dot_S5000x16_S16x4_S5000x4_1_0_0_1_n_n.contr.Idx) :
    (dot_S5000x16_S16x4_S5000x4_1_0_0_1_n_n.rhsIdx i q 1).val = (i 1).val := by
  unfold DotDims.rhsIdx
  rw [dif_neg (show ¬(1 : Fin S16x4.rank) ∈ dot_S5000x16_S16x4_S5000x4_1_0_0_1_n_n.rhsBatch by decide), dif_pos (show (1 : Fin S16x4.rank) ∈ dot_S5000x16_S16x4_S5000x4_1_0_0_1_n_n.rhsNonContracting by decide)]
  rfl

/-- An entry of a tile's result: the sum over the contracted position of left entry times weight entry, plus the column's bias. -/
theorem tile_apply (v0 : Vec Ideal S5000x16 .f32) (v2 : Vec Ideal S16x4 .f32) (v4 : Vec Ideal S1x4 .f32) (y : S5000x4.Idx) :
    k6_pay1 (F := Ideal) v0 v2 v4 y = FloatOps.addf (F := Ideal) (φ := .f32) (∑ k : Fin 16, v0 (lpos y k) * v2 (rpos y k)) (v4 (colPosB y)) := by
  unfold k6_pay1
  show FloatOps.addf (F := Ideal) (φ := .f32) (FloatOps.matmul (F := Ideal) dot_S5000x16_S16x4_S5000x4_1_0_0_1_n_n none (shapeCast S5000x16 v0 shapeCasts_S5000x16_S5000x16) v2 (constant S5000x4 .f32 0x00000000#32) y)
      (broadcastTo S5000x4 (shapeCast S1x4 (shapeCast S1x4 v4 shapeCasts_S1x4_S1x4) shapeCasts_S1x4_S1x4) broadcasts_S1x4_S5000x4 y) = _
  rw [shapeCast_self, shapeCast_self, shapeCast_self]
  have hb : broadcastTo S5000x4 v4 broadcasts_S1x4_S5000x4 y = v4 (colPosB y) :=
    broadcastTo_apply v4 broadcasts_S1x4_S5000x4 y (colPosB y) fun a => by
      match a with
      | ⟨0, _⟩ => rfl
      | ⟨1, _⟩ => rfl
  rw [hb]
  refine congrArg (fun z => FloatOps.addf (F := Ideal) (φ := .f32) z (v4 (colPosB y))) ?_
  refine (Ideal.matmul_constant_zero_apply dot_S5000x16_S16x4_S5000x4_1_0_0_1_n_n none v0 v2 y).trans ?_
  rw [← Equiv.sum_comp (ValueIdx.contrEquiv1 dot_S5000x16_S16x4_S5000x4_1_0_0_1_n_n 16 rfl rfl).symm]
  refine Finset.sum_congr rfl fun k _ => ?_
  have hk := ValueIdx.contrEquiv1_symm_val dot_S5000x16_S16x4_S5000x4_1_0_0_1_n_n 16 rfl rfl k
  have el : dot_S5000x16_S16x4_S5000x4_1_0_0_1_n_n.lhsIdx y ((ValueIdx.contrEquiv1 dot_S5000x16_S16x4_S5000x4_1_0_0_1_n_n 16 rfl rfl).symm k) = lpos y k := funext fun a => Fin.ext (by
    match a with
    | ⟨0, _⟩ => exact lhs_0 _ _
    | ⟨1, _⟩ => exact (lhs_1 _ _).trans hk)
  have er : dot_S5000x16_S16x4_S5000x4_1_0_0_1_n_n.rhsIdx y ((ValueIdx.contrEquiv1 dot_S5000x16_S16x4_S5000x4_1_0_0_1_n_n 16 rfl rfl).symm k) = rpos y k := funext fun a => Fin.ext (by
    match a with
    | ⟨0, _⟩ => exact (rhs_0 _ _).trans hk
    | ⟨1, _⟩ => exact rhs_1 _ _)
  rw [el, er]

/-- The product of the whole arrays with the bias row added: entry (r, j) is the sum over k of h(r, k) * w(k, j), plus b(0, j). -/
abbrev whole (H : S200000x16.Idx → Elt Ideal .f32) (W : S16x4.Idx → Elt Ideal .f32) (b : S1x4.Idx → Elt Ideal .f32) : S200000x4.Idx → Elt Ideal .f32 :=
  fun i => FloatOps.addf (F := Ideal) (φ := .f32) (Host.dotGeneral (F := Ideal) (φ₁ := .f32) (φ₂ := .f32) Cert.ReferenceIdeal.dot_S200000x16_S16x4_S200000x4_1_0_0_1_n_n none H W i) (b (colPos i))

/-- An entry of the whole product is the same sum over the whole arrays. -/
theorem prod_apply (H : S200000x16.Idx → Elt Ideal .f32) (W : S16x4.Idx → Elt Ideal .f32) (i : S200000x4.Idx) :
    Host.dotGeneral (F := Ideal) (φ₁ := .f32) (φ₂ := .f32) Cert.ReferenceIdeal.dot_S200000x16_S16x4_S200000x4_1_0_0_1_n_n none H W i
      = ∑ k : Fin 16, H (Cert.ReferenceIdeal.ReadP.lidx_main_v66 i k) * W (Cert.ReferenceIdeal.ReadP.ridx_main_v66 i k) := by
  simp only [Host.dotGeneral]
  rw [Ideal.dotGeneral_apply]
  rw [← Equiv.sum_comp (ValueIdx.contrEquiv1 Cert.ReferenceIdeal.dot_S200000x16_S16x4_S200000x4_1_0_0_1_n_n 16 rfl rfl).symm]
  refine Finset.sum_congr rfl fun k _ => ?_
  have hk := ValueIdx.contrEquiv1_symm_val Cert.ReferenceIdeal.dot_S200000x16_S16x4_S200000x4_1_0_0_1_n_n 16 rfl rfl k
  have el : Cert.ReferenceIdeal.dot_S200000x16_S16x4_S200000x4_1_0_0_1_n_n.lhsIdx i ((ValueIdx.contrEquiv1 Cert.ReferenceIdeal.dot_S200000x16_S16x4_S200000x4_1_0_0_1_n_n 16 rfl rfl).symm k) = Cert.ReferenceIdeal.ReadP.lidx_main_v66 i k := funext fun a => Fin.ext (by
    match a with
    | ⟨0, _⟩ => exact Cert.ReferenceIdeal.ReadP.lhs_main_v66_0 _ _
    | ⟨1, _⟩ => exact (Cert.ReferenceIdeal.ReadP.lhs_main_v66_1 _ _).trans hk)
  have er : Cert.ReferenceIdeal.dot_S200000x16_S16x4_S200000x4_1_0_0_1_n_n.rhsIdx i ((ValueIdx.contrEquiv1 Cert.ReferenceIdeal.dot_S200000x16_S16x4_S200000x4_1_0_0_1_n_n 16 rfl rfl).symm k) = Cert.ReferenceIdeal.ReadP.ridx_main_v66 i k := funext fun a => Fin.ext (by
    match a with
    | ⟨0, _⟩ => exact (Cert.ReferenceIdeal.ReadP.rhs_main_v66_0 _ _).trans hk
    | ⟨1, _⟩ => exact Cert.ReferenceIdeal.ReadP.rhs_main_v66_1 _ _)
  rw [el, er]

variable (V : (c : Dev nD) → (b : Ref sig .tc) → Buf (Elt Ideal) ((c : Thread nD τ).loc b))

/-- Where each window's block sits at grid point t: the left tile and the result tile at row block t, the rest whole. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is tile t of the whole result. -/
theorem flushed_eq (c : Dev nD) (t : Fin cfg6.N) :
    (dat6 V c).flushed 3 t = ((cfg6.win 3).blk t).view.read (Elt Ideal) (whole (V c main_v59) (V c main_arg6) (V c main_v60)) := by
  show (cfg6.win 3).cut (grid6.coords t) ((dat6 V c).after 3 t) = _
  rw [after6_3]
  unfold out6_3
  rw [View.canon_unit_zero hz]
  simp only [View.ld_unit_zero (S := S5000x16) hz, View.ld_unit_zero (S := S16x4) hz, View.ld_unit_zero (S := S1x4) hz]
  obtain ⟨e0, e1, e2, e3, e6, e7, e4, e5⟩ := idx_facts t
  funext y
  show k6_pay1 (F := Ideal) (iblk6 V c 0 t) (iblk6 V c 1 t) (iblk6 V c 2 t) y = whole (V c main_v59) (V c main_arg6) (V c main_v60) (((cfg6.win 3).blk t).view.emb y)
  refine (tile_apply (iblk6 V c 0 t) (iblk6 V c 1 t) (iblk6 V c 2 t) y).trans ?_
  have hb : ((cfg6.win 2).blk t).view.emb (colPosB y) = colPos (((cfg6.win 3).blk t).view.emb y) := by
    funext a; apply Fin.ext
    match a with
    | ⟨0, _⟩ => show win6_2.index t (0 : Fin 2) * 1 + 1 * 0 = 0; omega
    | ⟨1, _⟩ => show win6_2.index t (1 : Fin 2) * 4 + 1 * (y 1).val = win6_3.index t (1 : Fin 2) * 4 + 1 * (y 1).val; omega
  show FloatOps.addf (F := Ideal) (φ := .f32) _ (V c main_v60 (((cfg6.win 2).blk t).view.emb (colPosB y))) = FloatOps.addf (F := Ideal) (φ := .f32) _ (V c main_v60 (colPos (((cfg6.win 3).blk t).view.emb y)))
  rw [hb]
  refine congrArg (fun z => FloatOps.addf (F := Ideal) (φ := .f32) z (V c main_v60 (colPos (((cfg6.win 3).blk t).view.emb y)))) ?_
  refine Eq.trans ?_ (prod_apply (V c main_v59) (V c main_arg6) (((cfg6.win 3).blk t).view.emb y)).symm
  refine Finset.sum_congr rfl fun k _ => ?_
  have hl : ((cfg6.win 0).blk t).view.emb (lpos y k) = Cert.ReferenceIdeal.ReadP.lidx_main_v66 (((cfg6.win 3).blk t).view.emb y) k := by
    funext a; apply Fin.ext
    match a with
    | ⟨0, _⟩ => show win6_0.index t (0 : Fin 2) * 5000 + 1 * (y 0).val = win6_3.index t (0 : Fin 2) * 5000 + 1 * (y 0).val; omega
    | ⟨1, _⟩ => show win6_0.index t (1 : Fin 2) * 16 + 1 * k.val = k.val; omega
  have hr : ((cfg6.win 1).blk t).view.emb (rpos y k) = Cert.ReferenceIdeal.ReadP.ridx_main_v66 (((cfg6.win 3).blk t).view.emb y) k := by
    funext a; apply Fin.ext
    match a with
    | ⟨0, _⟩ => show win6_1.index t (0 : Fin 2) * 16 + 1 * k.val = k.val; omega
    | ⟨1, _⟩ => show win6_1.index t (1 : Fin 2) * 4 + 1 * (y 1).val = win6_3.index t (1 : Fin 2) * 4 + 1 * (y 1).val; omega
  rw [← hl, ← hr]
  rfl

/-- An index of the result array lies in point t's tile iff each coordinate is in the tile's range. -/
theorem mem_blk (t : Fin cfg6.N) (i : S200000x4.Idx) :
    i ∈ ((cfg6.win 3).blk t).view.set ↔ ∀ a : Fin 2, win6_3.index t a * S5000x4.size a ≤ (i a).val ∧ (i a).val < win6_3.index t a * S5000x4.size a + S5000x4.size a := by
  show i ∈ ((View.whole main_v61).slice (win6_3.rect t)).set ↔ _
  rw [View.set_slice_whole, Rect.mem_set_unit]
  exact Iff.rfl

/-- Row r of the result array lies in the tile of point r / 5000. -/
theorem cover (i : S200000x4.Idx) : ∃ t : Fin cfg6.N, (cfg6.win 3).flush t = true ∧ i ∈ ((cfg6.win 3).blk t).view.set := by
  have hi0 : (i 0).val < 200000 := (i 0).isLt
  have hi1 : (i 1).val < 4 := (i 1).isLt
  have hN : grid6.N = 40 := N_6
  have ht : (i 0).val / 5000 < grid6.N := by omega
  obtain ⟨e0, e1, e2, e3, e6, e7, e4, e5⟩ := idx_facts ⟨(i 0).val / 5000, ht⟩
  refine ⟨⟨(i 0).val / 5000, ht⟩, flush6_3 _, ?_⟩
  rw [mem_blk]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_3.index ⟨(i 0).val / 5000, ht⟩ (1 : Fin 2) * 4 ≤ (i 1).val ∧ (i 1).val < win6_3.index ⟨(i 0).val / 5000, ht⟩ (1 : Fin 2) * 4 + 4
    rw [e5]; omega

/-- The array the region leaves is the whole result of the arrays as the region found them. -/
theorem final (c : Dev nD) : (dat6 V c).arrAt 3 cfg6.N = whole (V c main_v59) (V c main_arg6) (V c main_v60) :=
  (dat6 V c).arrAt_eq_of_cover 3 _ (fun t _ => flushed_eq V c t) cover

end Cert.KernelIdeal.Tiles6

end
-- ==== Proof.ChainE.lean ====
/-
  The output layer.  The host reshapes the output bias into a row; the seventh region multiplies the hidden features by
  the output weight and adds the bias.  The result array then holds the value the reference's last operations give.
-/
import proofs.«124231_j50199577755932_2_alg».proof.Proof.Gen.KernelIdeal.Frame
import proofs.«124231_j50199577755932_2_alg».proof.Proof.RefRead
import proofs.«124231_j50199577755932_2_alg».proof.Proof.ChainD
import proofs.«124231_j50199577755932_2_alg».proof.Proof.Tiles6
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Reads a buffer through the operations that ran before it: each operation's result at its own buffer is its
    function of its operands, and at any other buffer what was there. -/
local macro "read_results" : tactic =>
  `(tactic| ((try after_results_simp)
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- Nothing between boundary 0 and boundary 13 writes this buffer. -/
theorem keep_arg7_0_13 : W13 m ρ c (Proc.devRef .tc main_arg7) = W0 m ρ c (Proc.devRef .tc main_arg7) :=
  (W13_of_ne m ρ c main_arg7 (by decide)).trans
    ((by show StableHlo.after hostOps5 (W11 m ρ c) (Proc.devRef .tc main_arg7) = _; after_results_simp <;> rfl : W12 m ρ c (Proc.devRef .tc main_arg7) = W11 m ρ c (Proc.devRef .tc main_arg7)).trans
    ((W11_of_ne m ρ c main_arg7 (by decide)).trans
    ((by show StableHlo.after hostOps4 (W9 m ρ c) (Proc.devRef .tc main_arg7) = _; after_results_simp <;> rfl : W10 m ρ c (Proc.devRef .tc main_arg7) = W9 m ρ c (Proc.devRef .tc main_arg7)).trans
    ((W9_of_ne m ρ c main_arg7 (by decide)).trans
    ((W8_of_ne m ρ c main_arg7 (by decide)).trans
    ((by show StableHlo.after hostOps2 (W6 m ρ c) (Proc.devRef .tc main_arg7) = _; after_results_simp <;> rfl : W7 m ρ c (Proc.devRef .tc main_arg7) = W6 m ρ c (Proc.devRef .tc main_arg7)).trans
    ((W6_of_ne m ρ c main_arg7 (by decide)).trans
    ((by show StableHlo.after hostOps1 (W4 m ρ c) (Proc.devRef .tc main_arg7) = _; after_results_simp <;> rfl : W5 m ρ c (Proc.devRef .tc main_arg7) = W4 m ρ c (Proc.devRef .tc main_arg7)).trans
    ((W4_of_ne m ρ c main_arg7 (by decide)).trans
    ((by show StableHlo.after hostOps0_2 (W2 m ρ c) (Proc.devRef .tc main_arg7) = _; after_results_simp <;> rfl : W3 m ρ c (Proc.devRef .tc main_arg7) = W2 m ρ c (Proc.devRef .tc main_arg7)).trans
    ((by show StableHlo.after hostOps0_1 (W1 m ρ c) (Proc.devRef .tc main_arg7) = _; after_results_simp <;> rfl : W2 m ρ c (Proc.devRef .tc main_arg7) = W1 m ρ c (Proc.devRef .tc main_arg7)).trans
    ((by show StableHlo.after hostOps0 (W0 m ρ c) (Proc.devRef .tc main_arg7) = _; after_results_simp <;> rfl : W1 m ρ c (Proc.devRef .tc main_arg7) = W0 m ρ c (Proc.devRef .tc main_arg7))))))))))))))
theorem at13_arg7 : W13 m ρ c (Proc.devRef .tc main_arg7) = (m ((c : Thread nD τ).loc main_arg7)) := keep_arg7_0_13 m ρ c

/-- The output bias as a row. -/
theorem at14_v60 : W14 m ρ c (Proc.devRef .tc main_v60) = (fun i => shapeCast S1x4 (m ((c : Thread nD τ).loc main_arg7)) shapeCasts_S4_S1x4 i) := by
  show StableHlo.after hostOps6 (W13 m ρ c) (Proc.devRef .tc main_v60) = _
  read_results
  rw [at13_arg7]
  rfl

/-- Nothing between boundary 13 and boundary 14 writes this buffer. -/
theorem keep_v59_13_14 : W14 m ρ c (Proc.devRef .tc main_v59) = W13 m ρ c (Proc.devRef .tc main_v59) :=
  (by show StableHlo.after hostOps6 (W13 m ρ c) (Proc.devRef .tc main_v59) = _; after_results_simp <;> rfl : W14 m ρ c (Proc.devRef .tc main_v59) = W13 m ρ c (Proc.devRef .tc main_v59))

/-- Nothing between boundary 0 and boundary 14 writes this buffer. -/
theorem keep_arg6_0_14 : W14 m ρ c (Proc.devRef .tc main_arg6) = W0 m ρ c (Proc.devRef .tc main_arg6) :=
  (by show StableHlo.after hostOps6 (W13 m ρ c) (Proc.devRef .tc main_arg6) = _; after_results_simp <;> rfl : W14 m ρ c (Proc.devRef .tc main_arg6) = W13 m ρ c (Proc.devRef .tc main_arg6)).trans
    ((W13_of_ne m ρ c main_arg6 (by decide)).trans
    ((by show StableHlo.after hostOps5 (W11 m ρ c) (Proc.devRef .tc main_arg6) = _; after_results_simp <;> rfl : W12 m ρ c (Proc.devRef .tc main_arg6) = W11 m ρ c (Proc.devRef .tc main_arg6)).trans
    ((W11_of_ne m ρ c main_arg6 (by decide)).trans
    ((by show StableHlo.after hostOps4 (W9 m ρ c) (Proc.devRef .tc main_arg6) = _; after_results_simp <;> rfl : W10 m ρ c (Proc.devRef .tc main_arg6) = W9 m ρ c (Proc.devRef .tc main_arg6)).trans
    ((W9_of_ne m ρ c main_arg6 (by decide)).trans
    ((W8_of_ne m ρ c main_arg6 (by decide)).trans
    ((by show StableHlo.after hostOps2 (W6 m ρ c) (Proc.devRef .tc main_arg6) = _; after_results_simp <;> rfl : W7 m ρ c (Proc.devRef .tc main_arg6) = W6 m ρ c (Proc.devRef .tc main_arg6)).trans
    ((W6_of_ne m ρ c main_arg6 (by decide)).trans
    ((by show StableHlo.after hostOps1 (W4 m ρ c) (Proc.devRef .tc main_arg6) = _; after_results_simp <;> rfl : W5 m ρ c (Proc.devRef .tc main_arg6) = W4 m ρ c (Proc.devRef .tc main_arg6)).trans
    ((W4_of_ne m ρ c main_arg6 (by decide)).trans
    ((by show StableHlo.after hostOps0_2 (W2 m ρ c) (Proc.devRef .tc main_arg6) = _; after_results_simp <;> rfl : W3 m ρ c (Proc.devRef .tc main_arg6) = W2 m ρ c (Proc.devRef .tc main_arg6)).trans
    ((by show StableHlo.after hostOps0_1 (W1 m ρ c) (Proc.devRef .tc main_arg6) = _; after_results_simp <;> rfl : W2 m ρ c (Proc.devRef .tc main_arg6) = W1 m ρ c (Proc.devRef .tc main_arg6)).trans
    ((by show StableHlo.after hostOps0 (W0 m ρ c) (Proc.devRef .tc main_arg6) = _; after_results_simp <;> rfl : W1 m ρ c (Proc.devRef .tc main_arg6) = W0 m ρ c (Proc.devRef .tc main_arg6)))))))))))))))
theorem at14_arg6 : W14 m ρ c (Proc.devRef .tc main_arg6) = (m ((c : Thread nD τ).loc main_arg6)) := keep_arg6_0_14 m ρ c

/-- The result array: the hidden features times the output weight, plus the output bias. -/
theorem at15_v61 : W15 m ρ c (Proc.devRef .tc main_v61) = Cert.ReferenceIdeal.ReadP.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W15_arr m ρ c 3).trans ?_
  refine (Tiles6.final (V14 m ρ) c).trans ?_
  show Tiles6.whole (W14 m ρ c (Proc.devRef .tc main_v59)) (W14 m ρ c (Proc.devRef .tc main_arg6)) (W14 m ρ c (Proc.devRef .tc main_v60)) = _
  rw [keep_v59_13_14, at13_v59, at14_arg6, at14_v60]
  funext i
  show FloatOps.addf (F := Ideal) (φ := .f32)
    (Host.dotGeneral (F := Ideal) (φ₁ := .f32) (φ₂ := .f32) Cert.ReferenceIdeal.dot_S200000x16_S16x4_S200000x4_1_0_0_1_n_n none (Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) i)
    (shapeCast S1x4 (m ((c : Thread nD τ).loc main_arg7)) shapeCasts_S4_S1x4 (Tiles6.colPos i)) = _
  refine Eq.trans ?_ (Cert.ReferenceIdeal.ReadP.val_main_v69_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i).symm
  rw [Cert.ReferenceIdeal.ReadP.val_main_v68_apply, Cert.ReferenceIdeal.ReadP.val_main_v67_apply]
  have hb : shapeCast S1x4 (m ((c : Thread nD τ).loc main_arg7)) shapeCasts_S4_S1x4 (Tiles6.colPos i) = (m ((c : Thread nD τ).loc main_arg7)) (Cert.ReferenceIdeal.ReadP.idx_main_v67 (Cert.ReferenceIdeal.ReadP.idx_main_v68 i)) :=
    shapeCast_apply _ _ _ _ (by
      show (S4.rowMajor _).val = (S1x4.rowMajor _).val
      rw [Shape.rowMajor_val_one, Shape.rowMajor_val_two]
      show (i 1).val = 0 * 4 + (i 1).val
      omega)
  rw [hb]
  rfl

end Cert.KernelIdeal.Chain

end
-- ==== Proof.lean ====
/-
  The five claims for the two-layer graph convolution network.

  Both programs compute, from the node features x, the edge list and the layer weights, the same chain of values:
  the edge sources, destinations and normalisation weights (from the edge list alone); then twice "transform the
  node features by a weight, gather the transformed row of every edge's source, scale it by the edge's weight, sum
  the scaled rows into every edge's destination, add a bias and clamp at zero"; then a last transform with a bias.
  The reference does every step on whole arrays.  The kernel does the gathers and the sums in the same way and does
  the transforms, the scaling, the bias-and-clamp and the last layer in seven tiled regions; each region's result
  array is the reference's whole-array operation on the arrays the region found (the Tiles modules), so the fold of
  the kernel's segments carries the reference's value at every boundary (the Chain modules) and the result arrays
  are equal.  No law of arithmetic is used beyond reading a matrix product as a sum, so the precondition is not
  opened: the equality holds for all extended-real inputs.

  The two frames of the kernel are the generated ones; the reference's frame is its run with the result dropped; the
  idealization rewrote nothing.
-/
import proofs.«124231_j50199577755932_2_alg».proof.Defs
import proofs.«124231_j50199577755932_2_alg».proof.Proof.Gen.Kernel
import proofs.«124231_j50199577755932_2_alg».proof.Proof.Gen.Kernel.Frame
import proofs.«124231_j50199577755932_2_alg».proof.Proof.Gen.KernelIdeal
import proofs.«124231_j50199577755932_2_alg».proof.Proof.Gen.KernelIdeal.Frame
import proofs.«124231_j50199577755932_2_alg».proof.Proof.Gen.ReferenceIdeal
import proofs.«124231_j50199577755932_2_alg».proof.Proof.Gen.Pre_finite_inputs
import proofs.«124231_j50199577755932_2_alg».proof.Proof.RefRun
import proofs.«124231_j50199577755932_2_alg».proof.Proof.RefRead
import proofs.«124231_j50199577755932_2_alg».proof.Proof.Outcome
import proofs.«124231_j50199577755932_2_alg».proof.Proof.ChainE
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run, with its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Run from memories that agree on the arguments, both programs end with the same result array: the reference's
    last stage of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v69 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.at15_v61 m ρ c), (h c).2⟩)
      (Cert.KernelIdeal.Outcome.run_out (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v69_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
